-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S64x8 : Shape := ⟨2, ![64, 8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S64x8 : S_.BroadcastsInDim S64x8 (![] : Fin 0 → Fin S64x8.rank)
  reducesTo_S64x8_S_d0_1 : S64x8.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S8x64 .f32) (main_arg10 : FVec F S8 .f32) (main_arg11 : FVec F S64x8 .f32) (main_arg12 : FVec F S64 .f32) (main_v33 : IVec S_ 1) : IVec S_ 1 :=
  let main_v34 : FVec F S8x64 .f32 := Host.absf main_arg9
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S64x8 .f32 := Host.absf main_arg11
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S64 .f32) (main_arg8 : FVec F S64 .f32) (main_arg9 : FVec F S8x64 .f32) (main_arg10 : FVec F S8 .f32) (main_arg11 : FVec F S64x8 .f32) (main_arg12 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64 .f32) (main_arg7 : FVec F S64 .f32) (main_arg8 : FVec F S64 .f32) (main_arg9 : FVec F S8x64 .f32) (main_arg10 : FVec F S8 .f32) (main_arg11 : FVec F S64x8 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S64x8 : Shape := ⟨2, ![64, 8]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S1x8 : Shape := ⟨2, ![1, 8]⟩
abbrev S5000x64 : Shape := ⟨2, ![5000, 64]⟩
abbrev S5000x8 : Shape := ⟨2, ![5000, 8]⟩
abbrev S256 : Shape := ⟨1, ![256]⟩
abbrev S256x1 : Shape := ⟨2, ![256, 1]⟩
abbrev S256x64 : Shape := ⟨2, ![256, 64]⟩

abbrev nBuf : Space → Nat
  | .hbm => 93
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S8x64, .f32⟩
  | .hbm, ⟨10, _⟩ => ⟨S8, .f32⟩
  | .hbm, ⟨11, _⟩ => ⟨S64x8, .f32⟩
  | .hbm, ⟨12, _⟩ => ⟨S64, .f32⟩
  | .hbm, ⟨13, _⟩ => ⟨S1x1200000, .i32⟩
  | .hbm, ⟨14, _⟩ => ⟨S1200000, .i32⟩
  | .hbm, ⟨15, _⟩ => ⟨S1x1200000, .i32⟩
  | .hbm, ⟨16, _⟩ => ⟨S1200000, .i32⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S1200000x64, .f32⟩
  | .hbm, ⟨26, _⟩ => ⟨S_, .f32⟩
  | .hbm, ⟨27, _⟩ => ⟨S100000x64, .f32⟩
  | .hbm, ⟨28, _⟩ => ⟨S1200000x1, .i32⟩
  | .hbm, ⟨29, _⟩ => ⟨S100000x64, .f32⟩
  | .hbm, ⟨30, _⟩ => ⟨S_, .f32⟩
  | .hbm, ⟨31, _⟩ => ⟨S1200000, .f32⟩
  | .hbm, ⟨32, _⟩ => ⟨S_, .f32⟩
  | .hbm, ⟨33, _⟩ => ⟨S100000, .f32⟩
  | .hbm, ⟨34, _⟩ => ⟨S1200000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S1x8, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000, .f32⟩
  | .hbm, ⟨52, _⟩ => ⟨S_, .f32⟩
  | .hbm, ⟨53, _⟩ => ⟨S256, .f32⟩
  | .hbm, ⟨54, _⟩ => ⟨S100000x1, .i32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256x1, .f32⟩
  | .hbm, ⟨60, _⟩ => ⟨S_, .f32⟩
  | .hbm, ⟨61, _⟩ => ⟨S256x64, .f32⟩
  | .hbm, ⟨62, _⟩ => ⟨S100000x1, .i32⟩
  | .hbm, ⟨63, _⟩ => ⟨S256x64, .f32⟩
  | .hbm, ⟨64, _⟩ => ⟨S256x64, .f32⟩
  | .hbm, ⟨65, _⟩ => ⟨S256x64, .f32⟩
  | .hbm, ⟨66, _⟩ => ⟨S_, .i32⟩
  | .hbm, ⟨67, _⟩ => ⟨S100000, .i32⟩
  | .hbm, ⟨68, _⟩ => ⟨S100000, .i1⟩
  | .hbm, ⟨69, _⟩ => ⟨S_, .i32⟩
  | .hbm, ⟨70, _⟩ => ⟨S100000, .i32⟩
  | .hbm, ⟨71, _⟩ => ⟨S100000, .i32⟩
  | .hbm, ⟨72, _⟩ => ⟨S100000, .i32⟩
  | .hbm, ⟨73, _⟩ => ⟨S100000x1, .i32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S256x64, .f32⟩
  | .hbm, ⟨79, _⟩ => ⟨S100000x1, .i32⟩
  | .hbm, ⟨80, _⟩ => ⟨S256x64, .f32⟩
  | .hbm, ⟨81, _⟩ => ⟨S256x64, .f32⟩
  | .hbm, ⟨82, _⟩ => ⟨S256x64, .f32⟩
  | .hbm, ⟨83, _⟩ => ⟨S_, .i32⟩
  | .hbm, ⟨84, _⟩ => ⟨S100000, .i32⟩
  | .hbm, ⟨85, _⟩ => ⟨S100000, .i1⟩
  | .hbm, ⟨86, _⟩ => ⟨S_, .i32⟩
  | .hbm, ⟨87, _⟩ => ⟨S100000, .i32⟩
  | .hbm, ⟨88, _⟩ => ⟨S100000, .i32⟩
  | .hbm, ⟨89, _⟩ => ⟨S100000, .i32⟩
  | .hbm, ⟨90, _⟩ => ⟨S100000x1, .i32⟩
  | .hbm, ⟨91, _⟩ => ⟨S100000x64, .f32⟩
  | .hbm, ⟨92, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S8x64, .f32⟩
  | .local _ .vmem, ⟨8, _⟩ => ⟨S1x8, .f32⟩
  | .local _ .vmem, ⟨9, _⟩ => ⟨S64x8, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_cst_4 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S8_S1x8 : S8.ShapeCasts S1x8
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S5000x64 : S1x64.Broadcasts S5000x64
  inb_S8x64_S8x64_0_0 : ∀ a, (![0, 0] : Fin 2 → Nat) a + S8x64.size a ≤ S8x64.size a
  h_S8x64 : 0 < S8x64.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S64x8_S64x8_0_0 : ∀ a, (![0, 0] : Fin 2 → Nat) a + S64x8.size a ≤ S64x8.size a
  h_S64x8 : 0 < S64x8.numel
  transposes_S8x64_p1_0_S64x8 : S8x64.Transposes [1, 0] S64x8
  broadcasts_S1x8_S5000x8 : S1x8.Broadcasts S5000x8
  transposes_S64x8_p1_0_S8x64 : S64x8.Transposes [1, 0] S8x64
  bcast_S_S256 : S_.BroadcastsInDim S256 (![] : Fin 0 → Fin S256.rank)
  bcast_S256_S256x1_0 : S256.BroadcastsInDim S256x1 (![0] : Fin 1 → Fin S256x1.rank)
  bcast_S_S256x64 : S_.BroadcastsInDim S256x64 (![] : Fin 0 → Fin S256x64.rank)
  bcast_S256x1_S256x64_0_1 : S256x1.BroadcastsInDim S256x64 (![0, 1] : Fin 2 → Fin S256x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  dot_S5000x64_S64x8_S5000x8_1_0_0_1_n_n_wf : DotDims.WF S5000x64 S64x8 S5000x8 [1] [0] [0] [1] [] []
  dot_S5000x8_S8x64_S5000x64_1_0_0_1_n_n_wf : DotDims.WF S5000x8 S8x64 S5000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  gather_S256x64_S100000x1_S100000x64_1_0_n_n_0_1_164_wf : GatherDims.WF S256x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x8.size a ≤ S64x8.size a
  hwx0_7 : ∀ i : grid0.Coords, EltTy.bits .f32 = 32 ∨ (Rect.block (s := S64x8) S64x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def gather_S256x64_S100000x1_S100000x64_1_0_n_n_0_1_164 : GatherDims S256x64 S100000x1 S100000x64 where
  offsetDims := [1]
  collapsedSliceDims := [0]
  operandBatchingDims := []
  startIndicesBatchingDims := []
  startIndexMap := [0]
  indexVectorDim := 1
  sliceSizes := ![1, 64]
  wf := gather_S256x64_S100000x1_S100000x64_1_0_n_n_0_1_164_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S64x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29_0) S5000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_1) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v29_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29_1) S5000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S5000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v63) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S64x8 : Shape := ⟨2, ![64, 8]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S256 : Shape := ⟨1, ![256]⟩
abbrev S256x1 : Shape := ⟨2, ![256, 1]⟩
abbrev S256x64 : Shape := ⟨2, ![256, 64]⟩
abbrev S100000x8 : Shape := ⟨2, ![100000, 8]⟩
abbrev S1x8 : Shape := ⟨2, ![1, 8]⟩

abbrev nBuf : Space → Nat
  | .hbm => 132
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S8x64, .f32⟩
  | 10 => ⟨S8, .f32⟩
  | 11 => ⟨S64x8, .f32⟩
  | 12 => ⟨S64, .f32⟩
  | 13 => ⟨S1x1200000, .i32⟩
  | 14 => ⟨S1200000, .i32⟩
  | 15 => ⟨S1x1200000, .i32⟩
  | 16 => ⟨S1200000, .i32⟩
  | 17 => ⟨S_, .i32⟩
  | 18 => ⟨S1200000, .i32⟩
  | 19 => ⟨S1200000, .i1⟩
  | 20 => ⟨S_, .i32⟩
  | 21 => ⟨S1200000, .i32⟩
  | 22 => ⟨S1200000, .i32⟩
  | 23 => ⟨S1200000, .i32⟩
  | 24 => ⟨S1200000x1, .i32⟩
  | 25 => ⟨S1200000x64, .f32⟩
  | 26 => ⟨S_, .f32⟩
  | 27 => ⟨S100000x64, .f32⟩
  | 28 => ⟨S1200000x1, .i32⟩
  | 29 => ⟨S100000x64, .f32⟩
  | 30 => ⟨S_, .f32⟩
  | 31 => ⟨S1200000, .f32⟩
  | 32 => ⟨S_, .f32⟩
  | 33 => ⟨S100000, .f32⟩
  | 34 => ⟨S1200000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S64x64, .f32⟩
  | 43 => ⟨S100000x64, .f32⟩
  | 44 => ⟨S1x64, .f32⟩
  | 45 => ⟨S100000x64, .f32⟩
  | 46 => ⟨S100000x64, .f32⟩
  | 47 => ⟨S64x64, .f32⟩
  | 48 => ⟨S100000x64, .f32⟩
  | 49 => ⟨S100000x64, .f32⟩
  | 50 => ⟨S_, .f32⟩
  | 51 => ⟨S100000, .f32⟩
  | 52 => ⟨S_, .f32⟩
  | 53 => ⟨S256, .f32⟩
  | 54 => ⟨S100000x1, .i32⟩
  | 55 => ⟨S256, .f32⟩
  | 56 => ⟨S_, .f32⟩
  | 57 => ⟨S256, .f32⟩
  | 58 => ⟨S256, .f32⟩
  | 59 => ⟨S256x1, .f32⟩
  | 60 => ⟨S_, .f32⟩
  | 61 => ⟨S256x64, .f32⟩
  | 62 => ⟨S100000x1, .i32⟩
  | 63 => ⟨S256x64, .f32⟩
  | 64 => ⟨S256x64, .f32⟩
  | 65 => ⟨S256x64, .f32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S100000x64, .f32⟩
  | 75 => ⟨S1x64, .f32⟩
  | 76 => ⟨S100000x64, .f32⟩
  | 77 => ⟨S100000x64, .f32⟩
  | 78 => ⟨S100000x64, .f32⟩
  | 79 => ⟨S100000x64, .f32⟩
  | 80 => ⟨S_, .f32⟩
  | 81 => ⟨S256x64, .f32⟩
  | 82 => ⟨S100000x1, .i32⟩
  | 83 => ⟨S256x64, .f32⟩
  | 84 => ⟨S256x64, .f32⟩
  | 85 => ⟨S256x64, .f32⟩
  | 86 => ⟨S1x64, .f32⟩
  | 87 => ⟨S100000x64, .f32⟩
  | 88 => ⟨S100000x64, .f32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S64x8, .f32⟩
  | 107 => ⟨S100000x8, .f32⟩
  | 108 => ⟨S1x8, .f32⟩
  | 109 => ⟨S100000x8, .f32⟩
  | 110 => ⟨S100000x8, .f32⟩
  | 111 => ⟨S_, .f32⟩
  | 112 => ⟨S100000x8, .f32⟩
  | 113 => ⟨S100000x8, .f32⟩
  | 114 => ⟨S8x64, .f32⟩
  | 115 => ⟨S100000x64, .f32⟩
  | 116 => ⟨S1x64, .f32⟩
  | 117 => ⟨S100000x64, .f32⟩
  | 118 => ⟨S100000x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call0_cst : Ref sig .tc := ⟨.hbm, 111, rfl⟩
abbrev main_call0_v0 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_v90 : Ref sig .tc := ⟨.hbm, 122, rfl⟩
abbrev main_v91 : Ref sig .tc := ⟨.hbm, 123, rfl⟩
abbrev main_cst_15 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_call1_cst : Ref sig .tc := ⟨.hbm, 129, rfl⟩
abbrev main_call1_v0 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256 : S_.BroadcastsInDim S256 (![] : Fin 0 → Fin S256.rank)
  bcast_S256_S256x1_0 : S256.BroadcastsInDim S256x1 (![0] : Fin 1 → Fin S256x1.rank)
  bcast_S_S256x64 : S_.BroadcastsInDim S256x64 (![] : Fin 0 → Fin S256x64.rank)
  bcast_S256x1_S256x64_0_1 : S256x1.BroadcastsInDim S256x64 (![0, 1] : Fin 2 → Fin S256x64.rank)
  transposes_S8x64_S64x8_1_0 : S8x64.Transposes [1, 0] S64x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  transposes_S64x8_S8x64_1_0 : S64x8.Transposes [1, 0] S8x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  gather_S256x64_S100000x1_S100000x64_1_0_n_n_0_1_164_wf : GatherDims.WF S256x64 S100000x1 S100000x64 [1] [0] [] [0] [] 1 ![1, 64]
  dot_S100000x64_S64x8_S100000x8_1_0_0_1_n_n_wf : DotDims.WF S100000x64 S64x8 S100000x8 [1] [0] [0] [1] [] []
  dot_S100000x8_S8x64_S100000x64_1_0_0_1_n_n_wf : DotDims.WF S100000x8 S8x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def gather_S256x64_S100000x1_S100000x64_1_0_n_n_0_1_164 : GatherDims S256x64 S100000x1 S100000x64 where
  offsetDims := [1]
  collapsedSliceDims := [0]
  operandBatchingDims := []
  startIndicesBatchingDims := []
  startIndexMap := [0]
  indexVectorDim := 1
  sliceSizes := ![1, 64]
  wf := gather_S256x64_S100000x1_S100000x64_1_0_n_n_0_1_164_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf

class Facts : Prop extends Facts₀ where

variable [Facts]
-- ==== Proof.KernelRun.lean ====
/-
  The idealized kernel's run with its result named.

  The program is three pipelined regions among stretches of host operations. The generated frame follows the
  buffer contents from the launch memory through every segment: a stretch of host operations applies its
  operations' fold, a region replaces its output arrays by what its write-backs leave and keeps every other
  buffer. The last of these contents is `W6`. Every weakly fair execution ends with each unscoped buffer at `W6`;
  read at the result's buffer this names the result, and read at an argument's buffer it is the launch contents.
-/
import proofs.«170338_j68178310856858_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result's buffer at the last
    boundary's contents and every argument as launched. -/
theorem run_named : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Named

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibTransposedLayer.lean ====
/-
  An affine layer whose weight is stored transposed, read at one entry, at the ideal values.

  For an R×K matrix X, an N×K matrix W (one row per output feature) and a bias b the layer is

      (X · Wᵀ + b)(p, q) = (∑ c, X(p, c) · W(q, c)) + b(q)

  in the extended reals. The transpose of W holds at (c, q) what W holds at (q, c); the product of X with it, on
  the matrix unit into the zero accumulator or as the host's general dot product with the plain dimension
  numbers, is at (p, q) the sum over the contracted coordinate c of X(p, c) · W(q, c). Nothing but the renaming
  of the contraction index by its one coordinate is used, so no finiteness is asked.

  Two spellings of the layer are read here at an entry:

    * a kernel's: both operands after a change of float format (the identity on ideal values), the weight
      transposed after it; the bias a 1×N row, re-cast to its own shape, copied to every row and added;
    * a host's: the weight transposed; the bias a length-N vector broadcast to a 1×N row and then to every row,
      and added; and the same under the hyperbolic tangent.

  The dimension record of either product may be any record equal to the plain one (for a record written out with
  those lists the equality is `rfl`); N ≠ 1 so that the row's own axis is not one that a broadcast copies.
-/
import Idealize.ShloMosaic.PureOps.Ideal.Laws
import Idealize.ShloMosaic.Lib.Pipeline.Value
import Idealize.ShloMosaic.Lib.ValueIdx
import proofs.«170338_j68178310856858_1_alg».proof.Proof.LibPlainDot
import proofs.«170338_j68178310856858_1_alg».proof.Proof.LibRowVector
import proofs.«170338_j68178310856858_1_alg».proof.Proof.LibRowInDim
import proofs.«170338_j68178310856858_1_alg».proof.Proof.LibRowOfVector

noncomputable section

open scoped BigOperators

namespace Cert.TransposedLayer

open Idealize.ShloMosaic Idealize.ShloMosaic.ValueIdx

variable {R K N : Nat}

/-- The transpose of an N×K matrix, at (c, q): the matrix at (q, c). -/
theorem transpose_ix2 {α : Type} (W : (⟨2, ![N, K]⟩ : Shape).Idx → α)
    (h : (⟨2, ![N, K]⟩ : Shape).Transposes [1, 0] ⟨2, ![K, N]⟩) (c : Fin K) (q : Fin N) :
    transpose ⟨2, ![K, N]⟩ [1, 0] W h (ix2 c q) = W (ix2 q c) :=
  transpose_apply [1, 0] W h (ix2 c q) (ix2 q c) (fun b => match b with
    | ⟨0, _⟩ => rfl
    | ⟨1, _⟩ => rfl)

/-- The product on the matrix unit, into the zero accumulator, of X with the transpose of W, at (p, q):
    the sum over c of X(p, c) · W(q, c). -/
theorem matmul_transposed_apply {φ₁ φ₂ : FTy} (D : DotDims ⟨2, ![R, K]⟩ ⟨2, ![K, N]⟩ ⟨2, ![R, N]⟩)
    (hD : D = DotDims.plain R K N) (prec : Option ContractPrecision) (X : FVec Ideal ⟨2, ![R, K]⟩ φ₁)
    (W : FVec Ideal ⟨2, ![N, K]⟩ φ₂) (htr : (⟨2, ![N, K]⟩ : Shape).Transposes [1, 0] ⟨2, ![K, N]⟩)
    (p : Fin R) (q : Fin N) :
    matmul D prec X (transpose ⟨2, ![K, N]⟩ [1, 0] W htr) (constant (F := Ideal) ⟨2, ![R, N]⟩ .f32 0x00000000#32) (ix2 p q)
      = ∑ c : Fin K, X (ix2 p c) * W (ix2 q c) := by
  refine (PlainDot.matmul_zero_apply D hD prec X (transpose ⟨2, ![K, N]⟩ [1, 0] W htr) p q).trans ?_
  refine Finset.sum_congr rfl fun c _ => ?_
  rw [transpose_ix2]

/-- The host's general dot product of X with the transpose of W, at (r, q): the same sum. -/
theorem dotGeneral_transposed_apply {φ₁ φ₂ : FTy} (D : DotDims ⟨2, ![R, K]⟩ ⟨2, ![K, N]⟩ ⟨2, ![R, N]⟩)
    (hD : D = DotDims.plain R K N) (prec : Option ContractPrecision) (X : FVec Ideal ⟨2, ![R, K]⟩ φ₁)
    (W : FVec Ideal ⟨2, ![N, K]⟩ φ₂) (htr : (⟨2, ![N, K]⟩ : Shape).Transposes [1, 0] ⟨2, ![K, N]⟩)
    (r : Fin R) (q : Fin N) :
    Host.dotGeneral D prec X (transpose ⟨2, ![K, N]⟩ [1, 0] W htr) (ix2 r q)
      = ∑ c : Fin K, X (ix2 r c) * W (ix2 q c) := by
  refine (PlainDot.dotGeneral_apply D hD prec .single X (transpose ⟨2, ![K, N]⟩ [1, 0] W htr) r q).trans ?_
  refine Finset.sum_congr rfl fun c _ => ?_
  rw [transpose_ix2]

/-- A 1×N row re-cast to its own shape and copied to every row of an R×N matrix, at (p, q): the row at (0, q). -/
theorem broadcastTo_cast_row {α : Type} (hN : N ≠ 1) (brow : (⟨2, ![1, N]⟩ : Shape).Idx → α)
    (hsc : (⟨2, ![1, N]⟩ : Shape).ShapeCasts ⟨2, ![1, N]⟩) (hbc : (⟨2, ![1, N]⟩ : Shape).Broadcasts ⟨2, ![R, N]⟩)
    (p : Fin R) (q : Fin N) :
    broadcastTo ⟨2, ![R, N]⟩ (shapeCast ⟨2, ![1, N]⟩ brow hsc) hbc (ix2 p q) = brow (ix2 0 q) := by
  rw [RowVector.broadcastTo_row hN, shapeCast_self]

/-- A kernel's spelling of the layer, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![N, K]⟩ .f32)
    (brow : FVec Ideal ⟨2, ![1, N]⟩ .f32) (hlt : FTy.bf16.bits < FTy.f32.bits)
    (htr : (⟨2, ![N, K]⟩ : Shape).Transposes [1, 0] ⟨2, ![K, N]⟩)
    (hsc : (⟨2, ![1, N]⟩ : Shape).ShapeCasts ⟨2, ![1, N]⟩) (hbc : (⟨2, ![1, N]⟩ : Shape).Broadcasts ⟨2, ![R, N]⟩)
    (p : Fin R) (q : Fin N) :
    addf (matmul D prec (truncf .bf16 X hlt) (transpose ⟨2, ![K, N]⟩ [1, 0] (truncf .bf16 W hlt) htr)
          (constant (F := Ideal) ⟨2, ![R, N]⟩ .f32 0x00000000#32))
        (broadcastTo ⟨2, ![R, N]⟩ (shapeCast ⟨2, ![1, N]⟩ brow hsc) hbc) (ix2 p q)
      = (∑ c : Fin K, X (ix2 p c) * W (ix2 q c)) + brow (ix2 0 q) := by
  show matmul D prec (truncf .bf16 X hlt) (transpose ⟨2, ![K, N]⟩ [1, 0] (truncf .bf16 W hlt) htr)
        (constant (F := Ideal) ⟨2, ![R, N]⟩ .f32 0x00000000#32) (ix2 p q)
      + broadcastTo ⟨2, ![R, N]⟩ (shapeCast ⟨2, ![1, N]⟩ brow hsc) hbc (ix2 p q) = _
  rw [broadcastTo_cast_row hN]
  exact congrArg (· + brow (ix2 0 q))
    (matmul_transposed_apply D hD prec (truncf .bf16 X hlt) (truncf .bf16 W hlt) htr p q)

/-- The same with both operands first re-cast to their own shapes. -/
theorem kernel_cast_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32) (W : FVec Ideal ⟨2, ![N, K]⟩ .f32)
    (brow : FVec Ideal ⟨2, ![1, N]⟩ .f32) (hlt : FTy.bf16.bits < FTy.f32.bits)
    (hX : (⟨2, ![R, K]⟩ : Shape).ShapeCasts ⟨2, ![R, K]⟩) (hW : (⟨2, ![N, K]⟩ : Shape).ShapeCasts ⟨2, ![N, K]⟩)
    (htr : (⟨2, ![N, K]⟩ : Shape).Transposes [1, 0] ⟨2, ![K, N]⟩)
    (hsc : (⟨2, ![1, N]⟩ : Shape).ShapeCasts ⟨2, ![1, N]⟩) (hbc : (⟨2, ![1, N]⟩ : Shape).Broadcasts ⟨2, ![R, N]⟩)
    (p : Fin R) (q : Fin N) :
    addf (matmul D prec (truncf .bf16 (shapeCast ⟨2, ![R, K]⟩ X hX) hlt)
          (transpose ⟨2, ![K, N]⟩ [1, 0] (truncf .bf16 (shapeCast ⟨2, ![N, K]⟩ W hW) hlt) htr)
          (constant (F := Ideal) ⟨2, ![R, N]⟩ .f32 0x00000000#32))
        (broadcastTo ⟨2, ![R, N]⟩ (shapeCast ⟨2, ![1, N]⟩ brow hsc) hbc) (ix2 p q)
      = (∑ c : Fin K, X (ix2 p c) * W (ix2 q c)) + brow (ix2 0 q) := by
  rw [shapeCast_self X hX, shapeCast_self W hW]
  exact kernel_apply D hD hN prec X W brow hlt htr hsc hbc p q

/-- A host's spelling of the layer, at entry (r, q). -/
theorem host_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![N, K]⟩ .f32)
    (b : FVec Ideal ⟨1, ![N]⟩ .f32) (htr : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (q : Fin N) :
    addf (Host.dotGeneral D prec X (transpose ⟨2, ![K, N]⟩ [1, 0] W htr))
        (broadcastInDim ⟨2, ![R, N]⟩ ![0, 1] h2 (broadcastInDim ⟨2, ![1, N]⟩ ![1] h1 b)) (ix2 r q)
      = (∑ c : Fin K, X (ix2 r c) * W (ix2 q c)) + b (ix1 q) := by
  show Host.dotGeneral D prec X (transpose ⟨2, ![K, N]⟩ [1, 0] W htr) (ix2 r q)
      + broadcastInDim ⟨2, ![R, N]⟩ ![0, 1] h2 (broadcastInDim ⟨2, ![1, N]⟩ ![1] h1 b) (ix2 r q) = _
  rw [RowInDim.broadcastInDim_rows hN, RowOfVector.broadcastInDim_row hN, dotGeneral_transposed_apply D hD]

/-- A host's spelling of the layer under the hyperbolic tangent, at entry (r, q). -/
theorem host_tanh_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![N, K]⟩ .f32)
    (b : FVec Ideal ⟨1, ![N]⟩ .f32) (htr : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (q : Fin N) :
    Host.tanh (addf (Host.dotGeneral D prec X (transpose ⟨2, ![K, N]⟩ [1, 0] W htr))
        (broadcastInDim ⟨2, ![R, N]⟩ ![0, 1] h2 (broadcastInDim ⟨2, ![1, N]⟩ ![1] h1 b))) (ix2 r q)
      = Ideal.tanh ((∑ c : Fin K, X (ix2 r c) * W (ix2 q c)) + b (ix1 q)) :=
  congrArg Ideal.tanh (host_apply D hD hN prec X W b htr h1 h2 r q)

end Cert.TransposedLayer

end
-- ==== Proof.LibSigmoid.lean ====
/-
  GENERAL LEMMAS: the sigmoid on the extended reals.

  A host program spells σ(z) as the quotient 1 / (1 + exp (−z)), with the constant 1.0 given by its f32 bit pattern;
  a kernel applies the one logistic operation. On the extended reals the two are the same function at every
  argument, the infinities included (σ(−∞) = 0, σ(+∞) = 1), because the logistic function is defined there as that
  quotient. Nothing here depends on a shape or a program.
-/
import Idealize.ShloMosaic.PureOps.Ideal

noncomputable section

namespace Cert.Lib.Sigmoid

open Idealize.ShloMosaic

/-- The f32 bit pattern of `1.0` denotes the real number one. -/
theorem one_f32 : Ideal.ofBits .f32 0x3F800000#32 = 1 := by
  simp [Ideal.ofBits, Ideal.ieee, -EReal.coe_mul]; norm_num

/-- The host's spelling of the sigmoid — one over one plus the exponential of the negated argument, each constant
    one the pattern of `1.0` — is the logistic function, at the infinities too. -/
theorem hostSigmoid_eq (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
      = Ideal.logistic z := by
  rw [one_f32]; rfl

/-- The kernel's logistic operation and the host's logistic operation are that same function. -/
theorem logistic_eq (z : EReal) :
    FloatOps.logistic (F := Ideal) (φ := .f32) z = Ideal.logistic z
      ∧ FloatOps.hostUnary (F := Ideal) (φ := .f32) .logistic z = Ideal.logistic z := ⟨rfl, rfl⟩

end Cert.Lib.Sigmoid

end
-- ==== Proof.Stages.lean ====
/-
  The four dense stages of the layer as whole-array functions, at the ideal values, written with the host's operations,
  and each read at one entry.

  For N×64 node features x and aggregated neighbour features agg:

    * the convolution        h(r, j)    = ((∑ c, agg(r, c) · Wl(j, c)) + bl(j)) + ∑ c, x(r, c) · Wr(j, c);
    * the channel gate       gate(r, j) = σ((∑ k, max((∑ c, x(r, c) · A1(k, c)) + b1(k), 0) · A2(j, k)) + b2(j));
    * the centring           out(r, j)  = h(r, j) − mean(r, j) · α(j);
    * the normalised output  res(r, j)  = max(((w(j) · out(r, j)) · rsqrt(var(r, j) + ε) + b(j)) + gate(r, j) · x(r, j), 0).

  The per-channel parameters enter as 1×64 (1×8) rows. Nothing here uses an algebraic law of the extended reals beyond
  the renaming of a contraction index, so no finiteness is asked.
-/
import proofs.«170338_j68178310856858_1_alg».proof.ReferenceIdeal
import proofs.«170338_j68178310856858_1_alg».proof.Proof.LibTransposedLayer
import proofs.«170338_j68178310856858_1_alg».proof.Proof.LibSigmoid

noncomputable section

open scoped BigOperators

namespace Cert.Stages

open Cert.ReferenceIdeal Cert.ReferenceIdeal.Facts₀ Idealize.ShloMosaic Idealize.ShloMosaic.ValueIdx

variable [Cert.ReferenceIdeal.Facts₀]

/-- The host's array of ones and of zeros (a rank-0 constant spread over the shape). -/
abbrev onesA : FVec Ideal S100000x64 .f32 :=
  broadcastInDim S100000x64 ![] bcast_S_S100000x64 (constant (F := Ideal) S_ .f32 0x3F800000#32)

/-- The graph convolution: the aggregated features through one weight, plus the bias row, plus the node's own features
    through the other weight. -/
def hStage (agg x : FVec Ideal S100000x64 .f32) (Wl Wr : FVec Ideal S64x64 .f32) (blr : FVec Ideal S1x64 .f32) :
    FVec Ideal S100000x64 .f32 :=
  addf (addf (Host.dotGeneral dot_S100000x64_S64x64_S100000x64_1_0_0_1_n_n none agg
        (transpose S64x64 [1, 0] Wl transposes_S64x64_S64x64_1_0))
      (broadcastInDim S100000x64 ![0, 1] bcast_S1x64_S100000x64_0_1 blr))
    (Host.dotGeneral dot_S100000x64_S64x64_S100000x64_1_0_0_1_n_n none x
      (transpose S64x64 [1, 0] Wr transposes_S64x64_S64x64_1_0))

/-- The hidden layer of the channel gate: an affine map into 8 channels clamped at zero. -/
def hidStage (x : FVec Ideal S100000x64 .f32) (a1w : FVec Ideal S8x64 .f32) (a1br : FVec Ideal S1x8 .f32) :
    FVec Ideal S100000x8 .f32 :=
  maximumf (addf (Host.dotGeneral dot_S100000x64_S64x8_S100000x8_1_0_0_1_n_n none x
        (transpose S64x8 [1, 0] a1w transposes_S8x64_S64x8_1_0))
      (broadcastInDim S100000x8 ![0, 1] bcast_S1x8_S100000x8_0_1 a1br))
    (broadcastInDim S100000x8 ![] bcast_S_S100000x8 (constant (F := Ideal) S_ .f32 0x00000000#32))

/-- The channel gate: the sigmoid, in the host's spelling 1 / (1 + exp (−z)), of an affine map of the hidden layer. -/
def gateStage (x : FVec Ideal S100000x64 .f32) (a1w : FVec Ideal S8x64 .f32) (a1br : FVec Ideal S1x8 .f32)
    (a2w : FVec Ideal S64x8 .f32) (a2br : FVec Ideal S1x64 .f32) : FVec Ideal S100000x64 .f32 :=
  Host.divf onesA (addf onesA (Host.exp (Host.negf
    (addf (Host.dotGeneral dot_S100000x8_S8x64_S100000x64_1_0_0_1_n_n none (hidStage x a1w a1br)
        (transpose S8x64 [1, 0] a2w transposes_S64x8_S8x64_1_0))
      (broadcastInDim S100000x64 ![0, 1] bcast_S1x64_S100000x64_0_1 a2br)))))

/-- The centring: the node's graph mean, scaled per channel, taken off. -/
def outStage (h meang : FVec Ideal S100000x64 .f32) (alphar : FVec Ideal S1x64 .f32) : FVec Ideal S100000x64 .f32 :=
  subf h (mulf meang (broadcastInDim S100000x64 ![0, 1] bcast_S1x64_S100000x64_0_1 alphar))

/-- The normalised, gated and clamped output. -/
def resStage (out varg : FVec Ideal S100000x64 .f32) (gnwr gnbr : FVec Ideal S1x64 .f32)
    (gate x : FVec Ideal S100000x64 .f32) : FVec Ideal S100000x64 .f32 :=
  maximumf (addf (addf (mulf (mulf (broadcastInDim S100000x64 ![0, 1] bcast_S1x64_S100000x64_0_1 gnwr) out)
        (Host.rsqrt (addf varg
          (broadcastInDim S100000x64 ![] bcast_S_S100000x64 (constant (F := Ideal) S_ .f32 0x3727C5AC#32)))))
      (broadcastInDim S100000x64 ![0, 1] bcast_S1x64_S100000x64_0_1 gnbr))
    (mulf gate x))
    (broadcastInDim S100000x64 ![] bcast_S_S100000x64 (constant (F := Ideal) S_ .f32 0x00000000#32))

/-! ## The stages read at an entry -/

theorem n64 : (64 : Nat) ≠ 1 := by decide
theorem n8 : (8 : Nat) ≠ 1 := by decide

/-- A rank-0 scalar spread over a shape is that scalar at every index. -/
theorem scalar_apply {s : Shape} (h : S_.BroadcastsInDim s (![] : Fin 0 → Fin s.rank)) (v : FVec Ideal S_ .f32) (i : s.Idx) :
    broadcastInDim s ![] h v i = v ix0 :=
  broadcastInDim_apply _ h v i ix0 (fun a => a.elim0)

/-- The convolution at (r, j). -/
theorem hStage_apply (agg x : FVec Ideal S100000x64 .f32) (Wl Wr : FVec Ideal S64x64 .f32) (blr : FVec Ideal S1x64 .f32)
    (r : Fin 100000) (j : Fin 64) :
    hStage agg x Wl Wr blr (ix2 r j)
      = ((∑ c : Fin 64, agg (ix2 r c) * Wl (ix2 j c)) + blr (ix2 0 j)) + ∑ c : Fin 64, x (ix2 r c) * Wr (ix2 j c) := by
  show (Host.dotGeneral dot_S100000x64_S64x64_S100000x64_1_0_0_1_n_n none agg
        (transpose S64x64 [1, 0] Wl transposes_S64x64_S64x64_1_0) (ix2 r j)
      + broadcastInDim S100000x64 ![0, 1] bcast_S1x64_S100000x64_0_1 blr (ix2 r j))
    + Host.dotGeneral dot_S100000x64_S64x64_S100000x64_1_0_0_1_n_n none x
        (transpose S64x64 [1, 0] Wr transposes_S64x64_S64x64_1_0) (ix2 r j) = _
  rw [RowInDim.broadcastInDim_rows n64,
    TransposedLayer.dotGeneral_transposed_apply (R := 100000) (K := 64) (N := 64)
      dot_S100000x64_S64x64_S100000x64_1_0_0_1_n_n rfl,
    TransposedLayer.dotGeneral_transposed_apply (R := 100000) (K := 64) (N := 64)
      dot_S100000x64_S64x64_S100000x64_1_0_0_1_n_n rfl]

/-- The hidden layer at (r, k). -/
theorem hidStage_apply (x : FVec Ideal S100000x64 .f32) (a1w : FVec Ideal S8x64 .f32) (a1br : FVec Ideal S1x8 .f32)
    (r : Fin 100000) (k : Fin 8) :
    hidStage x a1w a1br (ix2 r k)
      = max ((∑ c : Fin 64, x (ix2 r c) * a1w (ix2 k c)) + a1br (ix2 0 k)) (Ideal.ofBits .f32 0x00000000#32) := by
  show max (Host.dotGeneral dot_S100000x64_S64x8_S100000x8_1_0_0_1_n_n none x
        (transpose S64x8 [1, 0] a1w transposes_S8x64_S64x8_1_0) (ix2 r k)
      + broadcastInDim S100000x8 ![0, 1] bcast_S1x8_S100000x8_0_1 a1br (ix2 r k))
    (broadcastInDim S100000x8 ![] bcast_S_S100000x8 (constant (F := Ideal) S_ .f32 0x00000000#32) (ix2 r k)) = _
  rw [RowInDim.broadcastInDim_rows n8, scalar_apply,
    TransposedLayer.dotGeneral_transposed_apply (R := 100000) (K := 64) (N := 8)
      dot_S100000x64_S64x8_S100000x8_1_0_0_1_n_n rfl]
  rfl

/-- The gate at (r, j). -/
theorem gateStage_apply (x : FVec Ideal S100000x64 .f32) (a1w : FVec Ideal S8x64 .f32) (a1br : FVec Ideal S1x8 .f32)
    (a2w : FVec Ideal S64x8 .f32) (a2br : FVec Ideal S1x64 .f32) (r : Fin 100000) (j : Fin 64) :
    gateStage x a1w a1br a2w a2br (ix2 r j)
      = Ideal.logistic ((∑ k : Fin 8, hidStage x a1w a1br (ix2 r k) * a2w (ix2 j k)) + a2br (ix2 0 j)) := by
  have e : (Host.dotGeneral dot_S100000x8_S8x64_S100000x64_1_0_0_1_n_n none (hidStage x a1w a1br)
        (transpose S8x64 [1, 0] a2w transposes_S64x8_S8x64_1_0) (ix2 r j)
      + broadcastInDim S100000x64 ![0, 1] bcast_S1x64_S100000x64_0_1 a2br (ix2 r j))
      = (∑ k : Fin 8, hidStage x a1w a1br (ix2 r k) * a2w (ix2 j k)) + a2br (ix2 0 j) := by
    rw [RowInDim.broadcastInDim_rows n64,
      TransposedLayer.dotGeneral_transposed_apply (R := 100000) (K := 8) (N := 64)
        dot_S100000x8_S8x64_S100000x64_1_0_0_1_n_n rfl]
  rw [← e]
  exact Lib.Sigmoid.hostSigmoid_eq _

/-- The centring at (r, j). -/
theorem outStage_apply (h meang : FVec Ideal S100000x64 .f32) (alphar : FVec Ideal S1x64 .f32) (r : Fin 100000) (j : Fin 64) :
    outStage h meang alphar (ix2 r j) = h (ix2 r j) - meang (ix2 r j) * alphar (ix2 0 j) := by
  show h (ix2 r j) - meang (ix2 r j) * broadcastInDim S100000x64 ![0, 1] bcast_S1x64_S100000x64_0_1 alphar (ix2 r j) = _
  rw [RowInDim.broadcastInDim_rows n64]

/-- The output at (r, j). -/
theorem resStage_apply (out varg : FVec Ideal S100000x64 .f32) (gnwr gnbr : FVec Ideal S1x64 .f32)
    (gate x : FVec Ideal S100000x64 .f32) (r : Fin 100000) (j : Fin 64) :
    resStage out varg gnwr gnbr gate x (ix2 r j)
      = max ((((gnwr (ix2 0 j) * out (ix2 r j)) * Ideal.rsqrt (varg (ix2 r j) + Ideal.ofBits .f32 0x3727C5AC#32))
          + gnbr (ix2 0 j)) + gate (ix2 r j) * x (ix2 r j)) (Ideal.ofBits .f32 0x00000000#32) := by
  show max ((((broadcastInDim S100000x64 ![0, 1] bcast_S1x64_S100000x64_0_1 gnwr (ix2 r j) * out (ix2 r j))
        * Ideal.rsqrt (varg (ix2 r j)
            + broadcastInDim S100000x64 ![] bcast_S_S100000x64 (constant (F := Ideal) S_ .f32 0x3727C5AC#32) (ix2 r j)))
        + broadcastInDim S100000x64 ![0, 1] bcast_S1x64_S100000x64_0_1 gnbr (ix2 r j)) + gate (ix2 r j) * x (ix2 r j))
      (broadcastInDim S100000x64 ![] bcast_S_S100000x64 (constant (F := Ideal) S_ .f32 0x00000000#32) (ix2 r j)) = _
  rw [RowInDim.broadcastInDim_rows n64, RowInDim.broadcastInDim_rows n64, scalar_apply, scalar_apply]
  rfl

end Cert.Stages

end
-- ==== Proof.Payloads.lean ====
/-
  What each kernel body stores, read at one entry of its block, at the ideal values.

  A block holds 5000 rows of the 64 lanes. With X the block of node features, A the block of aggregated features and
  the parameters whole:

    * the first body's first store   ((∑ c, A(p, c) · Wl(q, c)) + bl(q)) + ∑ c, X(p, c) · Wr(q, c);
    * its second store               σ((∑ k, max((∑ c, X(p, c) · A1(k, c)) + b1(k), 0) · A2(q, k)) + b2(q));
    * the second body's store        H(p, q) − M(p, q) · α(q);
    * the third body's store         max(((w(q) · O(p, q)) · rsqrt(V(p, q) + ε) + b(q)) + G(p, q) · X(p, q), 0).

  A product on the matrix unit into the zero accumulator against a transposed weight is the sum over the contracted
  lane; a 1×n row copied to every row is read at the row's entry. No law of the extended reals is used.
-/
import proofs.«170338_j68178310856858_1_alg».proof.Proof.Gen.KernelIdeal.Skeleton
import proofs.«170338_j68178310856858_1_alg».proof.Proof.LibTransposedLayer
import proofs.«170338_j68178310856858_1_alg».proof.Proof.LibSigmoid

noncomputable section

open scoped BigOperators

namespace Cert.KernelIdeal.Payloads

open Cert.KernelIdeal Cert.KernelIdeal.Facts₀ Idealize.ShloMosaic Idealize.ShloMosaic.ValueIdx

variable [Cert.KernelIdeal.Facts]

theorem n64 : (64 : Nat) ≠ 1 := by decide
theorem n8 : (8 : Nat) ≠ 1 := by decide

/-- The convolution's block at (p, q). -/
theorem pay_h (v0 v2 : FVec Ideal S5000x64 .f32) (v3 v6 : FVec Ideal S64x64 .f32) (v4 : FVec Ideal S1x64 .f32)
    (p : Fin 5000) (q : Fin 64) :
    Gen.k0_pay1 (F := Ideal) v0 v2 v3 v4 v6 (ix2 p q)
      = ((∑ c : Fin 64, v0 (ix2 p c) * v3 (ix2 q c)) + v4 (ix2 0 q)) + ∑ c : Fin 64, v2 (ix2 p c) * v6 (ix2 q c) := by
  unfold Gen.k0_pay1
  show (matmul dot_S5000x64_S64x64_S5000x64_1_0_0_1_n_n none (shapeCast S5000x64 v0 shapeCasts_S5000x64_S5000x64)
          (transpose S64x64 [1, 0] v3 transposes_S64x64_p1_0_S64x64) (constant (F := Ideal) S5000x64 .f32 0x00000000#32) (ix2 p q)
        + broadcastTo S5000x64 (shapeCast S1x64 v4 shapeCasts_S1x64_S1x64) broadcasts_S1x64_S5000x64 (ix2 p q))
      + matmul dot_S5000x64_S64x64_S5000x64_1_0_0_1_n_n none v2
          (transpose S64x64 [1, 0] v6 transposes_S64x64_p1_0_S64x64) (constant (F := Ideal) S5000x64 .f32 0x00000000#32) (ix2 p q) = _
  rw [shapeCast_self v0, TransposedLayer.broadcastTo_cast_row n64,
    TransposedLayer.matmul_transposed_apply (R := 5000) (K := 64) (N := 64) dot_S5000x64_S64x64_S5000x64_1_0_0_1_n_n rfl,
    TransposedLayer.matmul_transposed_apply (R := 5000) (K := 64) (N := 64) dot_S5000x64_S64x64_S5000x64_1_0_0_1_n_n rfl]

/-- The gate's hidden layer, as the body spells it, at (p, k). -/
theorem hid_apply (v2 : FVec Ideal S5000x64 .f32) (v15 : FVec Ideal S8x64 .f32) (v16 : FVec Ideal S1x8 .f32)
    (p : Fin 5000) (k : Fin 8) :
    maximumf (addf (matmul dot_S5000x64_S64x8_S5000x8_1_0_0_1_n_n none v2
          (transpose S64x8 [1, 0] v15 transposes_S8x64_p1_0_S64x8) (constant (F := Ideal) S5000x8 .f32 0x00000000#32))
        (broadcastTo S5000x8 (shapeCast S1x8 v16 shapeCasts_S1x8_S1x8) broadcasts_S1x8_S5000x8))
      (broadcast S5000x8 (Scalar.ofBits (F := Ideal) .f32 0x00000000#32)) (ix2 p k)
      = max ((∑ c : Fin 64, v2 (ix2 p c) * v15 (ix2 k c)) + v16 (ix2 0 k)) (Ideal.ofBits .f32 0x00000000#32) := by
  show max (matmul dot_S5000x64_S64x8_S5000x8_1_0_0_1_n_n none v2
          (transpose S64x8 [1, 0] v15 transposes_S8x64_p1_0_S64x8) (constant (F := Ideal) S5000x8 .f32 0x00000000#32) (ix2 p k)
        + broadcastTo S5000x8 (shapeCast S1x8 v16 shapeCasts_S1x8_S1x8) broadcasts_S1x8_S5000x8 (ix2 p k))
      (Ideal.ofBits .f32 0x00000000#32) = _
  rw [TransposedLayer.broadcastTo_cast_row n8,
    TransposedLayer.matmul_transposed_apply (R := 5000) (K := 64) (N := 8) dot_S5000x64_S64x8_S5000x8_1_0_0_1_n_n rfl]

/-- The gate's block at (p, q). -/
theorem pay_gate (v2 : FVec Ideal S5000x64 .f32) (v15 : FVec Ideal S8x64 .f32) (v16 : FVec Ideal S1x8 .f32)
    (v18 : FVec Ideal S64x8 .f32) (v19 : FVec Ideal S1x64 .f32) (p : Fin 5000) (q : Fin 64) :
    Gen.k0_pay2 (F := Ideal) v2 v15 v16 v18 v19 (ix2 p q)
      = Ideal.logistic ((∑ k : Fin 8,
          max ((∑ c : Fin 64, v2 (ix2 p c) * v15 (ix2 k c)) + v16 (ix2 0 k)) (Ideal.ofBits .f32 0x00000000#32)
            * v18 (ix2 q k)) + v19 (ix2 0 q)) := by
  unfold Gen.k0_pay2
  show Ideal.logistic (matmul dot_S5000x8_S8x64_S5000x64_1_0_0_1_n_n none
        (maximumf (addf (matmul dot_S5000x64_S64x8_S5000x8_1_0_0_1_n_n none v2
              (transpose S64x8 [1, 0] v15 transposes_S8x64_p1_0_S64x8) (constant (F := Ideal) S5000x8 .f32 0x00000000#32))
            (broadcastTo S5000x8 (shapeCast S1x8 v16 shapeCasts_S1x8_S1x8) broadcasts_S1x8_S5000x8))
          (broadcast S5000x8 (Scalar.ofBits (F := Ideal) .f32 0x00000000#32)))
        (transpose S8x64 [1, 0] v18 transposes_S64x8_p1_0_S8x64) (constant (F := Ideal) S5000x64 .f32 0x00000000#32) (ix2 p q)
      + broadcastTo S5000x64 (shapeCast S1x64 v19 shapeCasts_S1x64_S1x64) broadcasts_S1x64_S5000x64 (ix2 p q)) = _
  rw [TransposedLayer.broadcastTo_cast_row n64,
    TransposedLayer.matmul_transposed_apply (R := 5000) (K := 8) (N := 64) dot_S5000x8_S8x64_S5000x64_1_0_0_1_n_n rfl]
  refine congrArg (fun z => Ideal.logistic (z + v19 (ix2 0 q))) (Finset.sum_congr rfl fun k _ => ?_)
  rw [hid_apply]

/-- The centred block at (p, q). -/
theorem pay_out (v0 v2 : FVec Ideal S5000x64 .f32) (v4 : FVec Ideal S1x64 .f32) (p : Fin 5000) (q : Fin 64) :
    Gen.k1_pay1 (F := Ideal) v0 v2 v4 (ix2 p q) = v0 (ix2 p q) - v2 (ix2 p q) * v4 (ix2 0 q) := by
  unfold Gen.k1_pay1
  show shapeCast S5000x64 v0 shapeCasts_S5000x64_S5000x64 (ix2 p q)
      - shapeCast S5000x64 v2 shapeCasts_S5000x64_S5000x64 (ix2 p q)
        * broadcastTo S5000x64 (shapeCast S1x64 v4 shapeCasts_S1x64_S1x64) broadcasts_S1x64_S5000x64 (ix2 p q) = _
  rw [shapeCast_self v0, shapeCast_self v2, TransposedLayer.broadcastTo_cast_row n64]

/-- The output block at (p, q). -/
theorem pay_res (v0 v2 : FVec Ideal S5000x64 .f32) (v4 v6 : FVec Ideal S1x64 .f32) (v8 v10 : FVec Ideal S5000x64 .f32)
    (p : Fin 5000) (q : Fin 64) :
    Gen.k2_pay1 (F := Ideal) v0 v2 v4 v6 v8 v10 (ix2 p q)
      = max ((((v4 (ix2 0 q) * v0 (ix2 p q)) * Ideal.rsqrt (v2 (ix2 p q) + Ideal.ofBits .f32 0x3727C5AC#32))
          + v6 (ix2 0 q)) + v8 (ix2 p q) * v10 (ix2 p q)) (Ideal.ofBits .f32 0x00000000#32) := by
  unfold Gen.k2_pay1
  show max ((((broadcastTo S5000x64 (shapeCast S1x64 v4 shapeCasts_S1x64_S1x64) broadcasts_S1x64_S5000x64 (ix2 p q)
            * shapeCast S5000x64 v0 shapeCasts_S5000x64_S5000x64 (ix2 p q))
          * Ideal.rsqrt (shapeCast S5000x64 v2 shapeCasts_S5000x64_S5000x64 (ix2 p q) + Ideal.ofBits .f32 0x3727C5AC#32))
        + broadcastTo S5000x64 (shapeCast S1x64 v6 shapeCasts_S1x64_S1x64) broadcasts_S1x64_S5000x64 (ix2 p q))
      + shapeCast S5000x64 v8 shapeCasts_S5000x64_S5000x64 (ix2 p q) * v10 (ix2 p q))
      (Ideal.ofBits .f32 0x00000000#32) = _
  rw [shapeCast_self v0, shapeCast_self v2, shapeCast_self v8, TransposedLayer.broadcastTo_cast_row n64,
    TransposedLayer.broadcastTo_cast_row n64]

end Cert.KernelIdeal.Payloads

end
-- ==== Proof.Region0.lean ====
/-
  The first region's two output arrays as whole-array functions of the arrays the region finds.

  The grid has 20 points; at point t the two row-tiled inputs (aggregated features, node features) and the two outputs
  are at rows 5000·t … 5000·t + 4999, all 64 lanes, and every parameter window is its whole array. An entry (p, q) of a
  block written back at t is therefore entry (5000·t + p, q) of the convolution (of the gate) of the whole arrays: the
  contraction runs over lanes, which a row tiling leaves whole. The 20 blocks tile the 100000 rows, so after the region
  each output array is that function everywhere.
-/
import proofs.«170338_j68178310856858_1_alg».proof.Proof.Gen.KernelIdeal.Frame
import proofs.«170338_j68178310856858_1_alg».proof.Proof.Stages
import proofs.«170338_j68178310856858_1_alg».proof.Proof.Payloads
import Idealize.ShloMosaic.Lib.Pipeline.Value

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts₀]

variable (V : (c : Dev nD) → (b : Ref sig .tc) → Buf (Elt Ideal) ((c : Thread nD τ).loc b))

theorem hz : (![0, 0] : Fin 2 → Nat) = fun _ => 0 := funext fun a => by fin_cases a <;> rfl

/-- Row p of the block of point t is row 5000·t + p of the array. -/
def rowOf (tv : Nat) (ht : tv < 20) (p : Fin 5000) : Fin 100000 := ⟨tv * 5000 + p.val, by have := p.isLt; omega⟩

theorem lt20 (t : Fin cfg0.N) : t.val < 20 := by have h := t.isLt; have hN : cfg0.N = 20 := N_0; omega

/-- The printed index maps over the grid: the row-tiled windows are at block row t, every other window at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-! ## The input blocks read off the arrays -/

theorem rd0 (c : Dev nD) (t : Fin cfg0.N) (p : Fin 5000) (q : Fin 64) :
    iblk0 V c 0 t (ix2 p q) = V c main_v22 (ix2 (rowOf t.val (lt20 t) p) q) := by
  obtain ⟨⟨e0, e1⟩, -⟩ := idx0 t
  show V c main_v22 (((cfg0.win 0).blk t).view.emb (ix2 p q)) = _
  refine congrArg (V c main_v22) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * q.val = q.val; omega

theorem rd1 (c : Dev nD) (t : Fin cfg0.N) (p : Fin 5000) (q : Fin 64) :
    iblk0 V c 1 t (ix2 p q) = V c main_arg0 (ix2 (rowOf t.val (lt20 t) p) q) := by
  obtain ⟨-, ⟨e0, e1⟩, -⟩ := idx0 t
  show V c main_arg0 (((cfg0.win 1).blk t).view.emb (ix2 p q)) = _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * q.val = q.val; omega

theorem rd2 (c : Dev nD) (t : Fin cfg0.N) (p : Fin 64) (q : Fin 64) :
    iblk0 V c 2 t (ix2 p q) = V c main_arg3 (ix2 p q) := by
  obtain ⟨-, -, ⟨e0, e1⟩, -⟩ := idx0 t
  show V c main_arg3 (((cfg0.win 2).blk t).view.emb (ix2 p q)) = _
  refine congrArg (V c main_arg3) (funext fun a => Fin.ext ?_)
  match a with
  | ⟨0, _⟩ => show win0_2.index t (0 : Fin 2) * 64 + 1 * p.val = p.val; omega
  | ⟨1, _⟩ => show win0_2.index t (1 : Fin 2) * 64 + 1 * q.val = q.val; omega

theorem rd3 (c : Dev nD) (t : Fin cfg0.N) (p : Fin 1) (q : Fin 64) :
    iblk0 V c 3 t (ix2 p q) = V c main_v23 (ix2 p q) := by
  obtain ⟨-, -, -, ⟨e0, e1⟩, -⟩ := idx0 t
  show V c main_v23 (((cfg0.win 3).blk t).view.emb (ix2 p q)) = _
  refine congrArg (V c main_v23) (funext fun a => Fin.ext ?_)
  match a with
  | ⟨0, _⟩ => show win0_3.index t (0 : Fin 2) * 1 + 1 * p.val = p.val; omega
  | ⟨1, _⟩ => show win0_3.index t (1 : Fin 2) * 64 + 1 * q.val = q.val; omega

theorem rd4 (c : Dev nD) (t : Fin cfg0.N) (p : Fin 64) (q : Fin 64) :
    iblk0 V c 4 t (ix2 p q) = V c main_arg5 (ix2 p q) := by
  obtain ⟨-, -, -, -, ⟨e0, e1⟩, -⟩ := idx0 t
  show V c main_arg5 (((cfg0.win 4).blk t).view.emb (ix2 p q)) = _
  refine congrArg (V c main_arg5) (funext fun a => Fin.ext ?_)
  match a with
  | ⟨0, _⟩ => show win0_4.index t (0 : Fin 2) * 64 + 1 * p.val = p.val; omega
  | ⟨1, _⟩ => show win0_4.index t (1 : Fin 2) * 64 + 1 * q.val = q.val; omega

/-- An entry of output block t sits at row 5000·t + p of its array. -/
theorem emb9 (t : Fin cfg0.N) (p : Fin 5000) (q : Fin 64) :
    ((cfg0.win 9).blk t).view.emb (ix2 p q) = ix2 (rowOf t.val (lt20 t) p) q := by
  obtain ⟨-, -, -, -, -, -, -, -, -, ⟨e0, e1⟩, -⟩ := idx0 t
  refine funext fun a => Fin.ext ?_
  match a with
  | ⟨0, _⟩ => show win0_9.index t (0 : Fin 2) * 5000 + 1 * p.val = t.val * 5000 + p.val; omega
  | ⟨1, _⟩ => show win0_9.index t (1 : Fin 2) * 64 + 1 * q.val = q.val; omega

/-! ## The convolution -/

/-- The convolution of the arrays the region finds. -/
abbrev G9 (c : Dev nD) : FVec Ideal Cert.ReferenceIdeal.S100000x64 .f32 :=
  Stages.hStage (V c main_v22) (V c main_arg0) (V c main_arg3) (V c main_arg5) (V c main_v23)

/-- What the body stores at point t is block t of the convolution. -/
theorem block9 (c : Dev nD) (t : Fin cfg0.N) :
    k0_pay1 (F := Ideal) (iblk0 V c 0 t) (iblk0 V c 1 t) (iblk0 V c 2 t) (iblk0 V c 3 t) (iblk0 V c 4 t)
      = ((cfg0.win 9).blk t).view.read (Elt Ideal) (G9 V c) := by
  funext y
  obtain ⟨p, q, rfl⟩ : ∃ (p : Fin 5000) (q : Fin 64), y = ix2 p q := ⟨y 0, y 1, eq_ix2 y⟩
  rw [View.read_apply, emb9, Payloads.pay_h]
  refine Eq.trans ?_ (Stages.hStage_apply (V c main_v22) (V c main_arg0) (V c main_arg3) (V c main_arg5) (V c main_v23)
    (rowOf t.val (lt20 t) p) q).symm
  simp only [rd0, rd1, rd2, rd3, rd4]

/-- What point t writes back is block t of that function. -/
theorem flushed9 (c : Dev nD) (t : Fin cfg0.N) :
    (dat0 V c).flushed 9 t = ((cfg0.win 9).blk t).view.read (Elt Ideal) (G9 V c) := by
  show (cfg0.win 9).cut (grid0.coords t) ((dat0 V c).after 9 t) = _
  rw [after0_9]
  unfold out0_9
  rw [View.canon_unit_zero hz]
  simp only [View.ld_unit_zero (S := S5000x64) hz, View.ld_unit_zero (S := S64x64) hz, View.ld_unit_zero (S := S1x64) hz]
  exact block9 V c t

/-- An index is in block t iff its row is among the block's 5000 rows. -/
theorem mem_blk9 (t : Fin cfg0.N) (i : S100000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v29_0).slice (win0_9.rect t)).set ↔ _
  rw [View.set_slice_whole, Rect.mem_set_unit]
  exact Iff.rfl

/-- Row r lies in the block of point r / 5000: the blocks tile the array. -/
theorem cover9 (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  have hN : cfg0.N = 20 := N_0
  have ht : (i 0).val / 5000 < cfg0.N := by omega
  obtain ⟨-, -, -, -, -, -, -, -, -, ⟨e0, e1⟩, -⟩ := idx0 ⟨(i 0).val / 5000, ht⟩
  refine ⟨⟨(i 0).val / 5000, ht⟩, flush0_9 _, ?_⟩
  rw [mem_blk9]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_9.index ⟨(i 0).val / 5000, ht⟩ (1 : Fin 2) * 64 ≤ (i 1).val
      ∧ (i 1).val < win0_9.index ⟨(i 0).val / 5000, ht⟩ (1 : Fin 2) * 64 + 64
    rw [e1]; omega

/-- After the region the array is that function. -/
theorem final9 (c : Dev nD) : (dat0 V c).arrAt 9 cfg0.N = G9 V c :=
  (dat0 V c).arrAt_eq_of_cover 9 (G9 V c) (fun t _ => flushed9 V c t) (fun i => cover9 i)

/-! ## The gate -/

theorem rd5 (c : Dev nD) (t : Fin cfg0.N) (p : Fin 8) (q : Fin 64) :
    iblk0 V c 5 t (ix2 p q) = V c main_arg9 (ix2 p q) := by
  obtain ⟨-, -, -, -, -, ⟨e0, e1⟩, -⟩ := idx0 t
  show V c main_arg9 (((cfg0.win 5).blk t).view.emb (ix2 p q)) = _
  refine congrArg (V c main_arg9) (funext fun a => Fin.ext ?_)
  match a with
  | ⟨0, _⟩ => show win0_5.index t (0 : Fin 2) * 8 + 1 * p.val = p.val; omega
  | ⟨1, _⟩ => show win0_5.index t (1 : Fin 2) * 64 + 1 * q.val = q.val; omega

theorem rd6 (c : Dev nD) (t : Fin cfg0.N) (p : Fin 1) (q : Fin 8) :
    iblk0 V c 6 t (ix2 p q) = V c main_v24 (ix2 p q) := by
  obtain ⟨-, -, -, -, -, -, ⟨e0, e1⟩, -⟩ := idx0 t
  show V c main_v24 (((cfg0.win 6).blk t).view.emb (ix2 p q)) = _
  refine congrArg (V c main_v24) (funext fun a => Fin.ext ?_)
  match a with
  | ⟨0, _⟩ => show win0_6.index t (0 : Fin 2) * 1 + 1 * p.val = p.val; omega
  | ⟨1, _⟩ => show win0_6.index t (1 : Fin 2) * 8 + 1 * q.val = q.val; omega

theorem rd7 (c : Dev nD) (t : Fin cfg0.N) (p : Fin 64) (q : Fin 8) :
    iblk0 V c 7 t (ix2 p q) = V c main_arg11 (ix2 p q) := by
  obtain ⟨-, -, -, -, -, -, -, ⟨e0, e1⟩, -⟩ := idx0 t
  show V c main_arg11 (((cfg0.win 7).blk t).view.emb (ix2 p q)) = _
  refine congrArg (V c main_arg11) (funext fun a => Fin.ext ?_)
  match a with
  | ⟨0, _⟩ => show win0_7.index t (0 : Fin 2) * 64 + 1 * p.val = p.val; omega
  | ⟨1, _⟩ => show win0_7.index t (1 : Fin 2) * 8 + 1 * q.val = q.val; omega

theorem rd8 (c : Dev nD) (t : Fin cfg0.N) (p : Fin 1) (q : Fin 64) :
    iblk0 V c 8 t (ix2 p q) = V c main_v25 (ix2 p q) := by
  obtain ⟨-, -, -, -, -, -, -, -, ⟨e0, e1⟩, -⟩ := idx0 t
  show V c main_v25 (((cfg0.win 8).blk t).view.emb (ix2 p q)) = _
  refine congrArg (V c main_v25) (funext fun a => Fin.ext ?_)
  match a with
  | ⟨0, _⟩ => show win0_8.index t (0 : Fin 2) * 1 + 1 * p.val = p.val; omega
  | ⟨1, _⟩ => show win0_8.index t (1 : Fin 2) * 64 + 1 * q.val = q.val; omega

/-- An entry of output block t sits at row 5000·t + p of its array. -/
theorem emb10 (t : Fin cfg0.N) (p : Fin 5000) (q : Fin 64) :
    ((cfg0.win 10).blk t).view.emb (ix2 p q) = ix2 (rowOf t.val (lt20 t) p) q := by
  obtain ⟨-, -, -, -, -, -, -, -, -, -, ⟨e0, e1⟩⟩ := idx0 t
  refine funext fun a => Fin.ext ?_
  match a with
  | ⟨0, _⟩ => show win0_10.index t (0 : Fin 2) * 5000 + 1 * p.val = t.val * 5000 + p.val; omega
  | ⟨1, _⟩ => show win0_10.index t (1 : Fin 2) * 64 + 1 * q.val = q.val; omega

/-- The channel gate of the arrays the region finds. -/
abbrev G10 (c : Dev nD) : FVec Ideal Cert.ReferenceIdeal.S100000x64 .f32 :=
  Stages.gateStage (V c main_arg0) (V c main_arg9) (V c main_v24) (V c main_arg11) (V c main_v25)

/-- What the body stores at point t is block t of the gate. -/
theorem block10 (c : Dev nD) (t : Fin cfg0.N) :
    k0_pay2 (F := Ideal) (iblk0 V c 1 t) (iblk0 V c 5 t) (iblk0 V c 6 t) (iblk0 V c 7 t) (iblk0 V c 8 t)
      = ((cfg0.win 10).blk t).view.read (Elt Ideal) (G10 V c) := by
  funext y
  obtain ⟨p, q, rfl⟩ : ∃ (p : Fin 5000) (q : Fin 64), y = ix2 p q := ⟨y 0, y 1, eq_ix2 y⟩
  rw [View.read_apply, emb10, Payloads.pay_gate]
  refine Eq.trans ?_ (Stages.gateStage_apply (V c main_arg0) (V c main_arg9) (V c main_v24) (V c main_arg11) (V c main_v25)
    (rowOf t.val (lt20 t) p) q).symm
  simp only [Stages.hidStage_apply, rd1, rd5, rd6, rd7, rd8]

/-- What point t writes back is block t of that function. -/
theorem flushed10 (c : Dev nD) (t : Fin cfg0.N) :
    (dat0 V c).flushed 10 t = ((cfg0.win 10).blk t).view.read (Elt Ideal) (G10 V c) := by
  show (cfg0.win 10).cut (grid0.coords t) ((dat0 V c).after 10 t) = _
  rw [after0_10]
  unfold out0_10
  rw [View.canon_unit_zero hz]
  simp only [View.ld_unit_zero (S := S5000x64) hz, View.ld_unit_zero (S := S8x64) hz, View.ld_unit_zero (S := S1x8) hz, View.ld_unit_zero (S := S64x8) hz, View.ld_unit_zero (S := S1x64) hz]
  exact block10 V c t

/-- An index is in block t iff its row is among the block's 5000 rows. -/
theorem mem_blk10 (t : Fin cfg0.N) (i : S100000x64.Idx) :
    i ∈ ((cfg0.win 10).blk t).view.set ↔ ∀ a : Fin 2, win0_10.index t a * S5000x64.size a ≤ (i a).val
      ∧ (i a).val < win0_10.index t a * S5000x64.size a + S5000x64.size a := by
  show i ∈ ((View.whole main_v29_1).slice (win0_10.rect t)).set ↔ _
  rw [View.set_slice_whole, Rect.mem_set_unit]
  exact Iff.rfl

/-- Row r lies in the block of point r / 5000: the blocks tile the array. -/
theorem cover10 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  have hN : cfg0.N = 20 := N_0
  have ht : (i 0).val / 5000 < cfg0.N := by omega
  obtain ⟨-, -, -, -, -, -, -, -, -, -, ⟨e0, e1⟩⟩ := idx0 ⟨(i 0).val / 5000, ht⟩
  refine ⟨⟨(i 0).val / 5000, ht⟩, flush0_10 _, ?_⟩
  rw [mem_blk10]
  intro a
  match a with
  | ⟨0, _⟩ =>
    show win0_10.index ⟨(i 0).val / 5000, ht⟩ (0 : Fin 2) * 5000 ≤ (i 0).val
      ∧ (i 0).val < win0_10.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_10.index ⟨(i 0).val / 5000, ht⟩ (1 : Fin 2) * 64 ≤ (i 1).val
      ∧ (i 1).val < win0_10.index ⟨(i 0).val / 5000, ht⟩ (1 : Fin 2) * 64 + 64
    rw [e1]; omega

/-- After the region the array is that function. -/
theorem final10 (c : Dev nD) : (dat0 V c).arrAt 10 cfg0.N = G10 V c :=
  (dat0 V c).arrAt_eq_of_cover 10 (G10 V c) (fun t _ => flushed10 V c t) (fun i => cover10 i)

end Cert.KernelIdeal.Region0

end
-- ==== Proof.Region1.lean ====
/-
  The second region's output array as a whole-array function of the arrays the region finds.

  At point t of the 20 the convolution, the per-node graph mean and the output are at rows 5000·t … 5000·t + 4999; the
  scale row is whole. The body is pointwise, so entry (p, q) of the block written back at t is entry (5000·t + p, q) of
  h − mean · α; the 20 blocks tile the rows.
-/
import proofs.«170338_j68178310856858_1_alg».proof.Proof.Gen.KernelIdeal.Frame
import proofs.«170338_j68178310856858_1_alg».proof.Proof.Stages
import proofs.«170338_j68178310856858_1_alg».proof.Proof.Payloads
import Idealize.ShloMosaic.Lib.Pipeline.Value

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts₀]

variable (V : (c : Dev nD) → (b : Ref sig .tc) → Buf (Elt Ideal) ((c : Thread nD τ).loc b))

theorem hz : (![0, 0] : Fin 2 → Nat) = fun _ => 0 := funext fun a => by fin_cases a <;> rfl

/-- Row p of the block of point t is row 5000·t + p of the array. -/
def rowOf (tv : Nat) (ht : tv < 20) (p : Fin 5000) : Fin 100000 := ⟨tv * 5000 + p.val, by have := p.isLt; omega⟩

theorem lt20 (t : Fin cfg1.N) : t.val < 20 := by have h := t.isLt; have hN : cfg1.N = 20 := N_1; omega

/-- The printed index maps over the grid: the row-tiled windows are at block row t, every other window at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

/-! ## The input blocks read off the arrays -/

theorem rd0 (c : Dev nD) (t : Fin cfg1.N) (p : Fin 5000) (q : Fin 64) :
    iblk1 V c 0 t (ix2 p q) = V c main_v29_0 (ix2 (rowOf t.val (lt20 t) p) q) := by
  obtain ⟨⟨e0, e1⟩, -⟩ := idx1 t
  show V c main_v29_0 (((cfg1.win 0).blk t).view.emb (ix2 p q)) = _
  refine congrArg (V c main_v29_0) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * q.val = q.val; omega

theorem rd1 (c : Dev nD) (t : Fin cfg1.N) (p : Fin 5000) (q : Fin 64) :
    iblk1 V c 1 t (ix2 p q) = V c main_v48 (ix2 (rowOf t.val (lt20 t) p) q) := by
  obtain ⟨-, ⟨e0, e1⟩, -⟩ := idx1 t
  show V c main_v48 (((cfg1.win 1).blk t).view.emb (ix2 p q)) = _
  refine congrArg (V c main_v48) (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * q.val = q.val; omega

theorem rd2 (c : Dev nD) (t : Fin cfg1.N) (p : Fin 1) (q : Fin 64) :
    iblk1 V c 2 t (ix2 p q) = V c main_v26 (ix2 p q) := by
  obtain ⟨-, -, ⟨e0, e1⟩, -⟩ := idx1 t
  show V c main_v26 (((cfg1.win 2).blk t).view.emb (ix2 p q)) = _
  refine congrArg (V c main_v26) (funext fun a => Fin.ext ?_)
  match a with
  | ⟨0, _⟩ => show win1_2.index t (0 : Fin 2) * 1 + 1 * p.val = p.val; omega
  | ⟨1, _⟩ => show win1_2.index t (1 : Fin 2) * 64 + 1 * q.val = q.val; omega

/-- An entry of output block t sits at row 5000·t + p of its array. -/
theorem emb3 (t : Fin cfg1.N) (p : Fin 5000) (q : Fin 64) :
    ((cfg1.win 3).blk t).view.emb (ix2 p q) = ix2 (rowOf t.val (lt20 t) p) q := by
  obtain ⟨-, -, -, ⟨e0, e1⟩⟩ := idx1 t
  refine funext fun a => Fin.ext ?_
  match a with
  | ⟨0, _⟩ => show win1_3.index t (0 : Fin 2) * 5000 + 1 * p.val = t.val * 5000 + p.val; omega
  | ⟨1, _⟩ => show win1_3.index t (1 : Fin 2) * 64 + 1 * q.val = q.val; omega

/-- The centred features of the arrays the region finds. -/
abbrev G3 (c : Dev nD) : FVec Ideal Cert.ReferenceIdeal.S100000x64 .f32 :=
  Stages.outStage (V c main_v29_0) (V c main_v48) (V c main_v26)

/-- What the body stores at point t is block t of the centred features. -/
theorem block3 (c : Dev nD) (t : Fin cfg1.N) :
    k1_pay1 (F := Ideal) (iblk1 V c 0 t) (iblk1 V c 1 t) (iblk1 V c 2 t)
      = ((cfg1.win 3).blk t).view.read (Elt Ideal) (G3 V c) := by
  funext y
  obtain ⟨p, q, rfl⟩ : ∃ (p : Fin 5000) (q : Fin 64), y = ix2 p q := ⟨y 0, y 1, eq_ix2 y⟩
  rw [View.read_apply, emb3, Payloads.pay_out]
  refine Eq.trans ?_ (Stages.outStage_apply (V c main_v29_0) (V c main_v48) (V c main_v26) (rowOf t.val (lt20 t) p) q).symm
  simp only [rd0, rd1, rd2]

/-- What point t writes back is block t of that function. -/
theorem flushed3 (c : Dev nD) (t : Fin cfg1.N) :
    (dat1 V c).flushed 3 t = ((cfg1.win 3).blk t).view.read (Elt Ideal) (G3 V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz]
  exact block3 V c t

/-- An index is in block t iff its row is among the block's 5000 rows. -/
theorem mem_blk3 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v49).slice (win1_3.rect t)).set ↔ _
  rw [View.set_slice_whole, Rect.mem_set_unit]
  exact Iff.rfl

/-- Row r lies in the block of point r / 5000: the blocks tile the array. -/
theorem cover3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by omega
  obtain ⟨-, -, -, ⟨e0, e1⟩⟩ := idx1 ⟨(i 0).val / 5000, ht⟩
  refine ⟨⟨(i 0).val / 5000, ht⟩, flush1_3 _, ?_⟩
  rw [mem_blk3]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val
      ∧ (i 1).val < win1_3.index ⟨(i 0).val / 5000, ht⟩ (1 : Fin 2) * 64 + 64
    rw [e1]; omega

/-- After the region the array is that function. -/
theorem final3 (c : Dev nD) : (dat1 V c).arrAt 3 cfg1.N = G3 V c :=
  (dat1 V c).arrAt_eq_of_cover 3 (G3 V c) (fun t _ => flushed3 V c t) (fun i => cover3 i)

end Cert.KernelIdeal.Region1

end
-- ==== Proof.Region2.lean ====
/-
  The third region's output array as a whole-array function of the arrays the region finds.

  At point t of the 20 the centred features, the per-node graph variance, the gate, the node features and the output
  are at rows 5000·t … 5000·t + 4999; the weight and bias rows are whole. The body is pointwise, so entry (p, q) of the
  block written back at t is entry (5000·t + p, q) of the normalised, gated and clamped output; the 20 blocks tile the rows.
-/
import proofs.«170338_j68178310856858_1_alg».proof.Proof.Gen.KernelIdeal.Frame
import proofs.«170338_j68178310856858_1_alg».proof.Proof.Stages
import proofs.«170338_j68178310856858_1_alg».proof.Proof.Payloads
import Idealize.ShloMosaic.Lib.Pipeline.Value

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts₀]

variable (V : (c : Dev nD) → (b : Ref sig .tc) → Buf (Elt Ideal) ((c : Thread nD τ).loc b))

theorem hz : (![0, 0] : Fin 2 → Nat) = fun _ => 0 := funext fun a => by fin_cases a <;> rfl

/-- Row p of the block of point t is row 5000·t + p of the array. -/
def rowOf (tv : Nat) (ht : tv < 20) (p : Fin 5000) : Fin 100000 := ⟨tv * 5000 + p.val, by have := p.isLt; omega⟩

theorem lt20 (t : Fin cfg2.N) : t.val < 20 := by have h := t.isLt; have hN : cfg2.N = 20 := N_2; omega

/-- The printed index maps over the grid: the row-tiled windows are at block row t, every other window at block (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0) :=
  (by decide +kernel : ∀ t : Fin grid2.N, _)

/-! ## The input blocks read off the arrays -/

theorem rd0 (c : Dev nD) (t : Fin cfg2.N) (p : Fin 5000) (q : Fin 64) :
    iblk2 V c 0 t (ix2 p q) = V c main_v49 (ix2 (rowOf t.val (lt20 t) p) q) := by
  obtain ⟨⟨e0, e1⟩, -⟩ := idx2 t
  show V c main_v49 (((cfg2.win 0).blk t).view.emb (ix2 p q)) = _
  refine congrArg (V c main_v49) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * q.val = q.val; omega

theorem rd1 (c : Dev nD) (t : Fin cfg2.N) (p : Fin 5000) (q : Fin 64) :
    iblk2 V c 1 t (ix2 p q) = V c main_v62 (ix2 (rowOf t.val (lt20 t) p) q) := by
  obtain ⟨-, ⟨e0, e1⟩, -⟩ := idx2 t
  show V c main_v62 (((cfg2.win 1).blk t).view.emb (ix2 p q)) = _
  refine congrArg (V c main_v62) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * q.val = q.val; omega

theorem rd2 (c : Dev nD) (t : Fin cfg2.N) (p : Fin 1) (q : Fin 64) :
    iblk2 V c 2 t (ix2 p q) = V c main_v27 (ix2 p q) := by
  obtain ⟨-, -, ⟨e0, e1⟩, -⟩ := idx2 t
  show V c main_v27 (((cfg2.win 2).blk t).view.emb (ix2 p q)) = _
  refine congrArg (V c main_v27) (funext fun a => Fin.ext ?_)
  match a with
  | ⟨0, _⟩ => show win2_2.index t (0 : Fin 2) * 1 + 1 * p.val = p.val; omega
  | ⟨1, _⟩ => show win2_2.index t (1 : Fin 2) * 64 + 1 * q.val = q.val; omega

theorem rd3 (c : Dev nD) (t : Fin cfg2.N) (p : Fin 1) (q : Fin 64) :
    iblk2 V c 3 t (ix2 p q) = V c main_v28 (ix2 p q) := by
  obtain ⟨-, -, -, ⟨e0, e1⟩, -⟩ := idx2 t
  show V c main_v28 (((cfg2.win 3).blk t).view.emb (ix2 p q)) = _
  refine congrArg (V c main_v28) (funext fun a => Fin.ext ?_)
  match a with
  | ⟨0, _⟩ => show win2_3.index t (0 : Fin 2) * 1 + 1 * p.val = p.val; omega
  | ⟨1, _⟩ => show win2_3.index t (1 : Fin 2) * 64 + 1 * q.val = q.val; omega

theorem rd4 (c : Dev nD) (t : Fin cfg2.N) (p : Fin 5000) (q : Fin 64) :
    iblk2 V c 4 t (ix2 p q) = V c main_v29_1 (ix2 (rowOf t.val (lt20 t) p) q) := by
  obtain ⟨-, -, -, -, ⟨e0, e1⟩, -⟩ := idx2 t
  show V c main_v29_1 (((cfg2.win 4).blk t).view.emb (ix2 p q)) = _
  refine congrArg (V c main_v29_1) (funext fun a => Fin.ext ?_)
  match a with
  | ⟨0, _⟩ => show win2_4.index t (0 : Fin 2) * 5000 + 1 * p.val = t.val * 5000 + p.val; omega
  | ⟨1, _⟩ => show win2_4.index t (1 : Fin 2) * 64 + 1 * q.val = q.val; omega

theorem rd5 (c : Dev nD) (t : Fin cfg2.N) (p : Fin 5000) (q : Fin 64) :
    iblk2 V c 5 t (ix2 p q) = V c main_arg0 (ix2 (rowOf t.val (lt20 t) p) q) := by
  obtain ⟨-, -, -, -, -, ⟨e0, e1⟩, -⟩ := idx2 t
  show V c main_arg0 (((cfg2.win 5).blk t).view.emb (ix2 p q)) = _
  refine congrArg (V c main_arg0) (funext fun a => Fin.ext ?_)
  match a with
  | ⟨0, _⟩ => show win2_5.index t (0 : Fin 2) * 5000 + 1 * p.val = t.val * 5000 + p.val; omega
  | ⟨1, _⟩ => show win2_5.index t (1 : Fin 2) * 64 + 1 * q.val = q.val; omega

/-- An entry of output block t sits at row 5000·t + p of its array. -/
theorem emb6 (t : Fin cfg2.N) (p : Fin 5000) (q : Fin 64) :
    ((cfg2.win 6).blk t).view.emb (ix2 p q) = ix2 (rowOf t.val (lt20 t) p) q := by
  obtain ⟨-, -, -, -, -, -, ⟨e0, e1⟩⟩ := idx2 t
  refine funext fun a => Fin.ext ?_
  match a with
  | ⟨0, _⟩ => show win2_6.index t (0 : Fin 2) * 5000 + 1 * p.val = t.val * 5000 + p.val; omega
  | ⟨1, _⟩ => show win2_6.index t (1 : Fin 2) * 64 + 1 * q.val = q.val; omega

/-- The output of the arrays the region finds. -/
abbrev G6 (c : Dev nD) : FVec Ideal Cert.ReferenceIdeal.S100000x64 .f32 :=
  Stages.resStage (V c main_v49) (V c main_v62) (V c main_v27) (V c main_v28) (V c main_v29_1) (V c main_arg0)

/-- What the body stores at point t is block t of the output. -/
theorem block6 (c : Dev nD) (t : Fin cfg2.N) :
    k2_pay1 (F := Ideal) (iblk2 V c 0 t) (iblk2 V c 1 t) (iblk2 V c 2 t) (iblk2 V c 3 t) (iblk2 V c 4 t) (iblk2 V c 5 t)
      = ((cfg2.win 6).blk t).view.read (Elt Ideal) (G6 V c) := by
  funext y
  obtain ⟨p, q, rfl⟩ : ∃ (p : Fin 5000) (q : Fin 64), y = ix2 p q := ⟨y 0, y 1, eq_ix2 y⟩
  rw [View.read_apply, emb6, Payloads.pay_res]
  refine Eq.trans ?_ (Stages.resStage_apply (V c main_v49) (V c main_v62) (V c main_v27) (V c main_v28) (V c main_v29_1)
    (V c main_arg0) (rowOf t.val (lt20 t) p) q).symm
  simp only [rd0, rd1, rd2, rd3, rd4, rd5]

/-- What point t writes back is block t of that function. -/
theorem flushed6 (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz]
  exact block6 V c t

/-- An index is in block t iff its row is among the block's 5000 rows. -/
theorem mem_blk6 (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v63).slice (win2_6.rect t)).set ↔ _
  rw [View.set_slice_whole, Rect.mem_set_unit]
  exact Iff.rfl

/-- Row r lies in the block of point r / 5000: the blocks tile the array. -/
theorem cover6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  have ht : (i 0).val / 5000 < cfg2.N := by omega
  obtain ⟨-, -, -, -, -, -, ⟨e0, e1⟩⟩ := idx2 ⟨(i 0).val / 5000, ht⟩
  refine ⟨⟨(i 0).val / 5000, ht⟩, flush2_6 _, ?_⟩
  rw [mem_blk6]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ (1 : Fin 2) * 64 ≤ (i 1).val
      ∧ (i 1).val < win2_6.index ⟨(i 0).val / 5000, ht⟩ (1 : Fin 2) * 64 + 64
    rw [e1]; omega

/-- After the region the array is that function. -/
theorem final6 (c : Dev nD) : (dat2 V c).arrAt 6 cfg2.N = G6 V c :=
  (dat2 V c).arrAt_eq_of_cover 6 (G6 V c) (fun t _ => flushed6 V c t) (fun i => cover6 i)

end Cert.KernelIdeal.Region2

end
-- ==== Proof.RefStages.lean ====
/-
  The reference program cut into the layer's stages.

  Between the dense stages the reference applies host operations that only move and pool rows: a graph's mean is the
  per-graph sum of the rows (a scatter-add by the graph index) divided by the clamped node count and read back per node
  (a gather by the normalised graph index); the variance is the same pooling of the squares. These are named here as
  functions of the array they pool and of the graph-index vector, and the reference's result is the composition

      res(out, var(out), gate)   with   out = h − mean(h) · α,   h = conv(agg(x, edges), x).

  Every equation is the unfolding of a definition: no operation is opened.
-/
import proofs.«170338_j68178310856858_1_alg».proof.Proof.Gen.ReferenceIdeal.Read
import proofs.«170338_j68178310856858_1_alg».proof.Proof.Stages

noncomputable section

namespace Cert.RefStages

open Cert.ReferenceIdeal Cert.ReferenceIdeal.Gen Cert.ReferenceIdeal.Read Cert.Stages Idealize.ShloMosaic

/-- The per-node graph mean of an array of rows: rows summed per graph, divided by the graph's clamped node count, read
    back at each node's graph. -/
def meanStage (h : FVec Ideal S100000x64 .f32) (x2 : (⟨S100000, .i32⟩ : BufTy).Contents (Elt Ideal)) : FVec Ideal S100000x64 .f32 :=
  Host.gather gather_S256x64_S100000x1_S100000x64_1_0_n_n_0_1_164
    (Host.divf (Host.scatterAdd scatter_S256x64_S100000x1_S100000x64_1_0_0_1 (val_main_v38 (F := Ideal))
        (val_main_v39 (F := Ideal) x2) h) (val_main_v41 (F := Ideal) x2))
    (val_main_v48 (F := Ideal) x2)

/-- The per-node graph mean of the squares of an array of rows. -/
def varStage (out : FVec Ideal S100000x64 .f32) (x2 : (⟨S100000, .i32⟩ : BufTy).Contents (Elt Ideal)) : FVec Ideal S100000x64 .f32 :=
  Host.gather gather_S256x64_S100000x1_S100000x64_1_0_n_n_0_1_164
    (Host.divf (Host.scatterAdd scatter_S256x64_S100000x1_S100000x64_1_0_0_1 (val_main_v55 (F := Ideal))
        (val_main_v56 (F := Ideal) x2) (mulf out out)) (val_main_v58 (F := Ideal) x2))
    (val_main_v68 (F := Ideal) x2)

variable (x0 : (⟨S100000x64, .f32⟩ : BufTy).Contents (Elt Ideal)) (x1 : (⟨S2x1200000, .i32⟩ : BufTy).Contents (Elt Ideal)) (x2 : (⟨S100000, .i32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal))
    (x6 x7 x8 : (⟨S64, .f32⟩ : BufTy).Contents (Elt Ideal)) (x9 : (⟨S8x64, .f32⟩ : BufTy).Contents (Elt Ideal)) (x10 : (⟨S8, .f32⟩ : BufTy).Contents (Elt Ideal))
    (x11 : (⟨S64x8, .f32⟩ : BufTy).Contents (Elt Ideal)) (x12 : (⟨S64, .f32⟩ : BufTy).Contents (Elt Ideal))

/-- The reference's convolution is the convolution stage of its aggregated features. -/
theorem v30_eq : val_main_v30 (F := Ideal) x0 x1 x3 x4 x5
    = hStage (val_main_v22 (F := Ideal) x0 x1) x0 x3 x5 (val_main_v25 (F := Ideal) x4) := by
  unfold val_main_v30 val_main_v27 val_main_v29 val_main_v24 val_main_v26 val_main_v23 val_main_v28 hStage
  rfl

/-- Its per-node mean is the mean stage of its convolution. -/
theorem v49_eq : val_main_v49 (F := Ideal) x0 x1 x2 x3 x4 x5
    = meanStage (val_main_v30 (F := Ideal) x0 x1 x3 x4 x5) x2 := by
  unfold val_main_v49 val_main_v42 val_main_v40 meanStage
  rfl

/-- Its centred features are the centring stage. -/
theorem v53_eq : val_main_v53 (F := Ideal) x0 x1 x2 x3 x4 x5 x8
    = outStage (val_main_v30 (F := Ideal) x0 x1 x3 x4 x5) (val_main_v49 (F := Ideal) x0 x1 x2 x3 x4 x5)
        (val_main_v50 (F := Ideal) x8) := by
  unfold val_main_v53 val_main_v52 val_main_v51 outStage
  rfl

/-- Its per-node variance is the variance stage of its centred features. -/
theorem v69_eq : val_main_v69 (F := Ideal) x0 x1 x2 x3 x4 x5 x8
    = varStage (val_main_v53 (F := Ideal) x0 x1 x2 x3 x4 x5 x8) x2 := by
  unfold val_main_v69 val_main_v59 val_main_v57 val_main_v54 varStage
  rfl

/-- Its gate is the gate stage. -/
theorem v93_eq : val_main_v93 (F := Ideal) x0 x9 x10 x11 x12
    = gateStage x0 x9 (val_main_v79 (F := Ideal) x10) x11 (val_main_v85 (F := Ideal) x12) := by
  unfold val_main_v93 val_main_v92 val_main_v91 val_main_v90 val_main_v89 val_main_v88 val_main_v87 val_main_v86 val_main_v84
    val_main_v83 val_main_v82 val_main_v81 val_main_v80 val_main_v78 val_main_v77 val_main_call0_v0 val_main_call0_cst
    val_main_cst_14 val_main_cst_15 gateStage hidStage
  rfl

/-- Its result is the output stage. -/
theorem v96_eq : val_main_v96 (F := Ideal) x0 x1 x2 x3 x4 x5 x6 x7 x8 x9 x10 x11 x12
    = resStage (val_main_v53 (F := Ideal) x0 x1 x2 x3 x4 x5 x8) (val_main_v69 (F := Ideal) x0 x1 x2 x3 x4 x5 x8)
        (val_main_v60 (F := Ideal) x6) (val_main_v74 (F := Ideal) x7) (val_main_v93 (F := Ideal) x0 x9 x10 x11 x12) x0 := by
  unfold val_main_v96 val_main_v95 val_main_v94 val_main_v76 val_main_v75 val_main_v73 val_main_v72 val_main_v71 val_main_v70
    val_main_v62 val_main_v61 val_main_call1_v0 val_main_call1_cst val_main_cst_13 resStage
  rfl

/-- The layer as a composition of its stages, from the aggregated features on. -/
def layer (agg x : FVec Ideal S100000x64 .f32) (x2 : (⟨S100000, .i32⟩ : BufTy).Contents (Elt Ideal)) (Wl Wr : FVec Ideal S64x64 .f32)
    (blr gnwr gnbr alphar : FVec Ideal S1x64 .f32) (a1w : FVec Ideal S8x64 .f32) (a1br : FVec Ideal S1x8 .f32)
    (a2w : FVec Ideal S64x8 .f32) (a2br : FVec Ideal S1x64 .f32) : FVec Ideal S100000x64 .f32 :=
  resStage (outStage (hStage agg x Wl Wr blr) (meanStage (hStage agg x Wl Wr blr) x2) alphar)
    (varStage (outStage (hStage agg x Wl Wr blr) (meanStage (hStage agg x Wl Wr blr) x2) alphar) x2)
    gnwr gnbr (gateStage x a1w a1br a2w a2br) x

/-- The reference's result is the layer of its aggregated features. -/
theorem ref_layer : val_main_v96 (F := Ideal) x0 x1 x2 x3 x4 x5 x6 x7 x8 x9 x10 x11 x12
    = layer (val_main_v22 (F := Ideal) x0 x1) x0 x2 x3 x5 (val_main_v25 (F := Ideal) x4) (val_main_v60 (F := Ideal) x6)
        (val_main_v74 (F := Ideal) x7) (val_main_v50 (F := Ideal) x8) x9 (val_main_v79 (F := Ideal) x10) x11
        (val_main_v85 (F := Ideal) x12) := by
  rw [v96_eq, v69_eq, v53_eq, v49_eq, v30_eq, v93_eq]
  rfl

end Cert.RefStages

end
-- ==== Proof.KernelChain.lean ====
/-
  The idealized kernel's result as the layer of the launch arrays.

  The buffer contents are followed boundary by boundary. Before the first region the host operations leave the aggregated
  neighbour features (the same gather, scatter-add and division the reference applies) and each per-channel parameter
  as a row; a reshape of a length-n vector to a 1×n row and its broadcast along the lanes are one array. Each region
  replaces its output arrays by its stage of the arrays it finds and keeps every other buffer. Between the regions the
  host operations pool rows per graph: the per-node mean of the convolution, then of the squared centred features — the
  reference's own operations on the same operands. Reading the result's buffer back through the boundaries composes
  the stages into the layer.
-/
import proofs.«170338_j68178310856858_1_alg».proof.Proof.Gen.KernelIdeal.Frame
import proofs.«170338_j68178310856858_1_alg».proof.Proof.Region0
import proofs.«170338_j68178310856858_1_alg».proof.Proof.Region1
import proofs.«170338_j68178310856858_1_alg».proof.Proof.Region2
import proofs.«170338_j68178310856858_1_alg».proof.Proof.RefStages
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem n64 : (64 : Nat) ≠ 1 := by decide
theorem n8 : (8 : Nat) ≠ 1 := by decide

/-! ## The stages of the launch arrays -/

abbrev aggK : FVec Ideal Cert.ReferenceIdeal.S100000x64 .f32 :=
  Cert.ReferenceIdeal.Read.val_main_v22 (F := Ideal) (m ((c : Thread nD τ).loc main_arg0)) (m ((c : Thread nD τ).loc main_arg1))
abbrev hK : FVec Ideal Cert.ReferenceIdeal.S100000x64 .f32 :=
  Stages.hStage (aggK m c) (m ((c : Thread nD τ).loc main_arg0)) (m ((c : Thread nD τ).loc main_arg3)) (m ((c : Thread nD τ).loc main_arg5)) (Cert.ReferenceIdeal.Read.val_main_v25 (F := Ideal) (m ((c : Thread nD τ).loc main_arg4)))
abbrev gateK : FVec Ideal Cert.ReferenceIdeal.S100000x64 .f32 :=
  Stages.gateStage (m ((c : Thread nD τ).loc main_arg0)) (m ((c : Thread nD τ).loc main_arg9)) (Cert.ReferenceIdeal.Read.val_main_v79 (F := Ideal) (m ((c : Thread nD τ).loc main_arg10))) (m ((c : Thread nD τ).loc main_arg11))
    (Cert.ReferenceIdeal.Read.val_main_v85 (F := Ideal) (m ((c : Thread nD τ).loc main_arg12)))
abbrev meanK : FVec Ideal Cert.ReferenceIdeal.S100000x64 .f32 := RefStages.meanStage (hK m c) (m ((c : Thread nD τ).loc main_arg2))
abbrev outK : FVec Ideal Cert.ReferenceIdeal.S100000x64 .f32 :=
  Stages.outStage (hK m c) (meanK m c) (Cert.ReferenceIdeal.Read.val_main_v50 (F := Ideal) (m ((c : Thread nD τ).loc main_arg8)))
abbrev varK : FVec Ideal Cert.ReferenceIdeal.S100000x64 .f32 := RefStages.varStage (outK m c) (m ((c : Thread nD τ).loc main_arg2))
abbrev resK : FVec Ideal Cert.ReferenceIdeal.S100000x64 .f32 :=
  Stages.resStage (outK m c) (varK m c) (Cert.ReferenceIdeal.Read.val_main_v60 (F := Ideal) (m ((c : Thread nD τ).loc main_arg6)))
    (Cert.ReferenceIdeal.Read.val_main_v74 (F := Ideal) (m ((c : Thread nD τ).loc main_arg7))) (gateK m c) (m ((c : Thread nD τ).loc main_arg0))

/-! ## Before the first region -/

theorem w1_v22 : W1 m ρ c (Proc.devRef .tc main_v22) = aggK m c := by
  show StableHlo.after hostOps0 (W0 m ρ c) (Proc.devRef .tc main_v22) = _
  after_results
  rfl

theorem w1_v23 : W1 m ρ c (Proc.devRef .tc main_v23) = Cert.ReferenceIdeal.Read.val_main_v25 (F := Ideal) (m ((c : Thread nD τ).loc main_arg4)) := by
  refine Eq.trans ?_ (RowOfVector.shapeCast_eq_broadcastInDim (n := 64) n64 (m ((c : Thread nD τ).loc main_arg4)) Facts₀.shapeCasts_S64_S1x64
    Cert.ReferenceIdeal.Facts₀.bcast_S64_S1x64_1)
  show StableHlo.after hostOps0 (W0 m ρ c) (Proc.devRef .tc main_v23) = _
  after_results
  rfl

theorem w1_v24 : W1 m ρ c (Proc.devRef .tc main_v24) = Cert.ReferenceIdeal.Read.val_main_v79 (F := Ideal) (m ((c : Thread nD τ).loc main_arg10)) := by
  refine Eq.trans ?_ (RowOfVector.shapeCast_eq_broadcastInDim (n := 8) n8 (m ((c : Thread nD τ).loc main_arg10)) Facts₀.shapeCasts_S8_S1x8
    Cert.ReferenceIdeal.Facts₀.bcast_S8_S1x8_1)
  show StableHlo.after hostOps0 (W0 m ρ c) (Proc.devRef .tc main_v24) = _
  after_results
  rfl

theorem w1_v25 : W1 m ρ c (Proc.devRef .tc main_v25) = Cert.ReferenceIdeal.Read.val_main_v85 (F := Ideal) (m ((c : Thread nD τ).loc main_arg12)) := by
  refine Eq.trans ?_ (RowOfVector.shapeCast_eq_broadcastInDim (n := 64) n64 (m ((c : Thread nD τ).loc main_arg12)) Facts₀.shapeCasts_S64_S1x64
    Cert.ReferenceIdeal.Facts₀.bcast_S64_S1x64_1)
  show StableHlo.after hostOps0 (W0 m ρ c) (Proc.devRef .tc main_v25) = _
  after_results
  rfl

theorem w1_v26 : W1 m ρ c (Proc.devRef .tc main_v26) = Cert.ReferenceIdeal.Read.val_main_v50 (F := Ideal) (m ((c : Thread nD τ).loc main_arg8)) := by
  refine Eq.trans ?_ (RowOfVector.shapeCast_eq_broadcastInDim (n := 64) n64 (m ((c : Thread nD τ).loc main_arg8)) Facts₀.shapeCasts_S64_S1x64
    Cert.ReferenceIdeal.Facts₀.bcast_S64_S1x64_1)
  show StableHlo.after hostOps0 (W0 m ρ c) (Proc.devRef .tc main_v26) = _
  after_results
  rfl

theorem w1_v27 : W1 m ρ c (Proc.devRef .tc main_v27) = Cert.ReferenceIdeal.Read.val_main_v60 (F := Ideal) (m ((c : Thread nD τ).loc main_arg6)) := by
  refine Eq.trans ?_ (RowOfVector.shapeCast_eq_broadcastInDim (n := 64) n64 (m ((c : Thread nD τ).loc main_arg6)) Facts₀.shapeCasts_S64_S1x64
    Cert.ReferenceIdeal.Facts₀.bcast_S64_S1x64_1)
  show StableHlo.after hostOps0 (W0 m ρ c) (Proc.devRef .tc main_v27) = _
  after_results
  rfl

theorem w1_v28 : W1 m ρ c (Proc.devRef .tc main_v28) = Cert.ReferenceIdeal.Read.val_main_v74 (F := Ideal) (m ((c : Thread nD τ).loc main_arg7)) := by
  refine Eq.trans ?_ (RowOfVector.shapeCast_eq_broadcastInDim (n := 64) n64 (m ((c : Thread nD τ).loc main_arg7)) Facts₀.shapeCasts_S64_S1x64
    Cert.ReferenceIdeal.Facts₀.bcast_S64_S1x64_1)
  show StableHlo.after hostOps0 (W0 m ρ c) (Proc.devRef .tc main_v28) = _
  after_results
  rfl

theorem w1_arg0 : W1 m ρ c (Proc.devRef .tc main_arg0) = (m ((c : Thread nD τ).loc main_arg0)) := by
  show StableHlo.after hostOps0 (W0 m ρ c) (Proc.devRef .tc main_arg0) = _
  after_results

theorem w1_arg2 : W1 m ρ c (Proc.devRef .tc main_arg2) = (m ((c : Thread nD τ).loc main_arg2)) := by
  show StableHlo.after hostOps0 (W0 m ρ c) (Proc.devRef .tc main_arg2) = _
  after_results

theorem w1_arg3 : W1 m ρ c (Proc.devRef .tc main_arg3) = (m ((c : Thread nD τ).loc main_arg3)) := by
  show StableHlo.after hostOps0 (W0 m ρ c) (Proc.devRef .tc main_arg3) = _
  after_results

theorem w1_arg5 : W1 m ρ c (Proc.devRef .tc main_arg5) = (m ((c : Thread nD τ).loc main_arg5)) := by
  show StableHlo.after hostOps0 (W0 m ρ c) (Proc.devRef .tc main_arg5) = _
  after_results

theorem w1_arg9 : W1 m ρ c (Proc.devRef .tc main_arg9) = (m ((c : Thread nD τ).loc main_arg9)) := by
  show StableHlo.after hostOps0 (W0 m ρ c) (Proc.devRef .tc main_arg9) = _
  after_results

theorem w1_arg11 : W1 m ρ c (Proc.devRef .tc main_arg11) = (m ((c : Thread nD τ).loc main_arg11)) := by
  show StableHlo.after hostOps0 (W0 m ρ c) (Proc.devRef .tc main_arg11) = _
  after_results

/-! ## After the first region -/

theorem w2_h : W2 m ρ c (Proc.devRef .tc main_v29_0) = hK m c := by
  refine (W2_arr m ρ c 9).trans ((Region0.final9 (V1 m ρ) c).trans ?_)
  show Stages.hStage (W1 m ρ c (Proc.devRef .tc main_v22)) (W1 m ρ c (Proc.devRef .tc main_arg0))
    (W1 m ρ c (Proc.devRef .tc main_arg3)) (W1 m ρ c (Proc.devRef .tc main_arg5)) (W1 m ρ c (Proc.devRef .tc main_v23)) = _
  rw [w1_v22, w1_arg0, w1_arg3, w1_arg5, w1_v23]

theorem w2_gate : W2 m ρ c (Proc.devRef .tc main_v29_1) = gateK m c := by
  refine (W2_arr m ρ c 10).trans ((Region0.final10 (V1 m ρ) c).trans ?_)
  show Stages.gateStage (W1 m ρ c (Proc.devRef .tc main_arg0)) (W1 m ρ c (Proc.devRef .tc main_arg9))
    (W1 m ρ c (Proc.devRef .tc main_v24)) (W1 m ρ c (Proc.devRef .tc main_arg11)) (W1 m ρ c (Proc.devRef .tc main_v25)) = _
  rw [w1_arg0, w1_arg9, w1_v24, w1_arg11, w1_v25]

theorem w2_arg0 : W2 m ρ c (Proc.devRef .tc main_arg0) = (m ((c : Thread nD τ).loc main_arg0)) :=
  (W2_arr m ρ c 1).trans ((((dat0 (V1 m ρ) c).arrAt_in 1 rfl _).trans (A_eq0 (V1 m ρ) c 1)).trans (w1_arg0 m ρ c))
theorem w2_arg2 : W2 m ρ c (Proc.devRef .tc main_arg2) = (m ((c : Thread nD τ).loc main_arg2)) :=
  (W2_of_ne m ρ c main_arg2 (by decide)).trans (w1_arg2 m ρ c)
theorem w2_v26 : W2 m ρ c (Proc.devRef .tc main_v26) = Cert.ReferenceIdeal.Read.val_main_v50 (F := Ideal) (m ((c : Thread nD τ).loc main_arg8)) :=
  (W2_of_ne m ρ c main_v26 (by decide)).trans (w1_v26 m ρ c)
theorem w2_v27 : W2 m ρ c (Proc.devRef .tc main_v27) = Cert.ReferenceIdeal.Read.val_main_v60 (F := Ideal) (m ((c : Thread nD τ).loc main_arg6)) :=
  (W2_of_ne m ρ c main_v27 (by decide)).trans (w1_v27 m ρ c)
theorem w2_v28 : W2 m ρ c (Proc.devRef .tc main_v28) = Cert.ReferenceIdeal.Read.val_main_v74 (F := Ideal) (m ((c : Thread nD τ).loc main_arg7)) :=
  (W2_of_ne m ρ c main_v28 (by decide)).trans (w1_v28 m ρ c)

/-! ## Before the second region -/

set_option maxHeartbeats 2000000 in
theorem w3_v48 : W3 m ρ c (Proc.devRef .tc main_v48) = meanK m c := by
  show StableHlo.after hostOps1 (W2 m ρ c) (Proc.devRef .tc main_v48) = _
  after_results_simp
  rw [w2_h, w2_arg2]
  rfl

/-- The clamped node count of every graph, as a column. -/
theorem w3_v36 : W3 m ρ c (Proc.devRef .tc main_v36) = Cert.ReferenceIdeal.Read.val_main_v37 (F := Ideal) (m ((c : Thread nD τ).loc main_arg2)) := by
  show StableHlo.after hostOps1 (W2 m ρ c) (Proc.devRef .tc main_v36) = _
  after_results
  rw [w2_arg2]
  rfl

theorem w3_h : W3 m ρ c (Proc.devRef .tc main_v29_0) = hK m c := by
  refine Eq.trans ?_ (w2_h m ρ c)
  show StableHlo.after hostOps1 (W2 m ρ c) (Proc.devRef .tc main_v29_0) = W2 m ρ c (Proc.devRef .tc main_v29_0)
  after_results
theorem w3_gate : W3 m ρ c (Proc.devRef .tc main_v29_1) = gateK m c := by
  refine Eq.trans ?_ (w2_gate m ρ c)
  show StableHlo.after hostOps1 (W2 m ρ c) (Proc.devRef .tc main_v29_1) = W2 m ρ c (Proc.devRef .tc main_v29_1)
  after_results
theorem w3_arg0 : W3 m ρ c (Proc.devRef .tc main_arg0) = (m ((c : Thread nD τ).loc main_arg0)) := by
  refine Eq.trans ?_ (w2_arg0 m ρ c)
  show StableHlo.after hostOps1 (W2 m ρ c) (Proc.devRef .tc main_arg0) = W2 m ρ c (Proc.devRef .tc main_arg0)
  after_results
theorem w3_arg2 : W3 m ρ c (Proc.devRef .tc main_arg2) = (m ((c : Thread nD τ).loc main_arg2)) := by
  refine Eq.trans ?_ (w2_arg2 m ρ c)
  show StableHlo.after hostOps1 (W2 m ρ c) (Proc.devRef .tc main_arg2) = W2 m ρ c (Proc.devRef .tc main_arg2)
  after_results
theorem w3_v26 : W3 m ρ c (Proc.devRef .tc main_v26) = Cert.ReferenceIdeal.Read.val_main_v50 (F := Ideal) (m ((c : Thread nD τ).loc main_arg8)) := by
  refine Eq.trans ?_ (w2_v26 m ρ c)
  show StableHlo.after hostOps1 (W2 m ρ c) (Proc.devRef .tc main_v26) = W2 m ρ c (Proc.devRef .tc main_v26)
  after_results
theorem w3_v27 : W3 m ρ c (Proc.devRef .tc main_v27) = Cert.ReferenceIdeal.Read.val_main_v60 (F := Ideal) (m ((c : Thread nD τ).loc main_arg6)) := by
  refine Eq.trans ?_ (w2_v27 m ρ c)
  show StableHlo.after hostOps1 (W2 m ρ c) (Proc.devRef .tc main_v27) = W2 m ρ c (Proc.devRef .tc main_v27)
  after_results
theorem w3_v28 : W3 m ρ c (Proc.devRef .tc main_v28) = Cert.ReferenceIdeal.Read.val_main_v74 (F := Ideal) (m ((c : Thread nD τ).loc main_arg7)) := by
  refine Eq.trans ?_ (w2_v28 m ρ c)
  show StableHlo.after hostOps1 (W2 m ρ c) (Proc.devRef .tc main_v28) = W2 m ρ c (Proc.devRef .tc main_v28)
  after_results

/-! ## After the second region -/

theorem w4_out : W4 m ρ c (Proc.devRef .tc main_v49) = outK m c := by
  refine (W4_arr m ρ c 3).trans ((Region1.final3 (V3 m ρ) c).trans ?_)
  show Stages.outStage (W3 m ρ c (Proc.devRef .tc main_v29_0)) (W3 m ρ c (Proc.devRef .tc main_v48))
    (W3 m ρ c (Proc.devRef .tc main_v26)) = _
  rw [w3_h, w3_v48, w3_v26]

theorem w4_arg0 : W4 m ρ c (Proc.devRef .tc main_arg0) = (m ((c : Thread nD τ).loc main_arg0)) :=
  (W4_of_ne m ρ c main_arg0 (by decide)).trans (w3_arg0 m ρ c)
theorem w4_arg2 : W4 m ρ c (Proc.devRef .tc main_arg2) = (m ((c : Thread nD τ).loc main_arg2)) :=
  (W4_of_ne m ρ c main_arg2 (by decide)).trans (w3_arg2 m ρ c)
theorem w4_v36 : W4 m ρ c (Proc.devRef .tc main_v36) = Cert.ReferenceIdeal.Read.val_main_v37 (F := Ideal) (m ((c : Thread nD τ).loc main_arg2)) :=
  (W4_of_ne m ρ c main_v36 (by decide)).trans (w3_v36 m ρ c)
theorem w4_gate : W4 m ρ c (Proc.devRef .tc main_v29_1) = gateK m c :=
  (W4_of_ne m ρ c main_v29_1 (by decide)).trans (w3_gate m ρ c)
theorem w4_v27 : W4 m ρ c (Proc.devRef .tc main_v27) = Cert.ReferenceIdeal.Read.val_main_v60 (F := Ideal) (m ((c : Thread nD τ).loc main_arg6)) :=
  (W4_of_ne m ρ c main_v27 (by decide)).trans (w3_v27 m ρ c)
theorem w4_v28 : W4 m ρ c (Proc.devRef .tc main_v28) = Cert.ReferenceIdeal.Read.val_main_v74 (F := Ideal) (m ((c : Thread nD τ).loc main_arg7)) :=
  (W4_of_ne m ρ c main_v28 (by decide)).trans (w3_v28 m ρ c)

/-! ## Before the third region -/

theorem w5_v62 : W5 m ρ c (Proc.devRef .tc main_v62) = varK m c := by
  show StableHlo.after hostOps2 (W4 m ρ c) (Proc.devRef .tc main_v62) = _
  after_results
  rw [w4_out, w4_arg2, w4_v36]
  rfl

theorem w5_out : W5 m ρ c (Proc.devRef .tc main_v49) = outK m c := by
  refine Eq.trans ?_ (w4_out m ρ c)
  show StableHlo.after hostOps2 (W4 m ρ c) (Proc.devRef .tc main_v49) = W4 m ρ c (Proc.devRef .tc main_v49)
  after_results
theorem w5_gate : W5 m ρ c (Proc.devRef .tc main_v29_1) = gateK m c := by
  refine Eq.trans ?_ (w4_gate m ρ c)
  show StableHlo.after hostOps2 (W4 m ρ c) (Proc.devRef .tc main_v29_1) = W4 m ρ c (Proc.devRef .tc main_v29_1)
  after_results
theorem w5_arg0 : W5 m ρ c (Proc.devRef .tc main_arg0) = (m ((c : Thread nD τ).loc main_arg0)) := by
  refine Eq.trans ?_ (w4_arg0 m ρ c)
  show StableHlo.after hostOps2 (W4 m ρ c) (Proc.devRef .tc main_arg0) = W4 m ρ c (Proc.devRef .tc main_arg0)
  after_results
theorem w5_v27 : W5 m ρ c (Proc.devRef .tc main_v27) = Cert.ReferenceIdeal.Read.val_main_v60 (F := Ideal) (m ((c : Thread nD τ).loc main_arg6)) := by
  refine Eq.trans ?_ (w4_v27 m ρ c)
  show StableHlo.after hostOps2 (W4 m ρ c) (Proc.devRef .tc main_v27) = W4 m ρ c (Proc.devRef .tc main_v27)
  after_results
theorem w5_v28 : W5 m ρ c (Proc.devRef .tc main_v28) = Cert.ReferenceIdeal.Read.val_main_v74 (F := Ideal) (m ((c : Thread nD τ).loc main_arg7)) := by
  refine Eq.trans ?_ (w4_v28 m ρ c)
  show StableHlo.after hostOps2 (W4 m ρ c) (Proc.devRef .tc main_v28) = W4 m ρ c (Proc.devRef .tc main_v28)
  after_results

/-! ## The result -/

/-- The result's buffer ends at the output stage of the launch arrays. -/
theorem w6_res : W6 m ρ c (Proc.devRef .tc main_v63) = resK m c := by
  refine (W6_arr m ρ c 6).trans ((Region2.final6 (V5 m ρ) c).trans ?_)
  show Stages.resStage (W5 m ρ c (Proc.devRef .tc main_v49)) (W5 m ρ c (Proc.devRef .tc main_v62))
    (W5 m ρ c (Proc.devRef .tc main_v27)) (W5 m ρ c (Proc.devRef .tc main_v28)) (W5 m ρ c (Proc.devRef .tc main_v29_1))
    (W5 m ρ c (Proc.devRef .tc main_arg0)) = _
  rw [w5_out, w5_v62, w5_v27, w5_v28, w5_gate, w5_arg0]

end Cert.KernelIdeal.Chain

end
-- ==== Proof.lean ====
/-
  A graph layer computed by three tiled kernels among host operations, against its plain reference: the two programs
  end with equal results on the extended reals.

  The layer: neighbour features are averaged per node (a gather along the edges, a scatter-add by target, a division
  by the clamped in-degree); a convolution h = agg·Wlᵀ + bl + x·Wrᵀ; a per-graph normalisation (the graph mean taken
  off, scaled per channel; divided by the root of the graph variance plus ε; an affine map per channel); a channel gate
  σ(relu(x·A1ᵀ + b1)·A2ᵀ + b2) times x added; and a clamp at zero.

  The kernel program keeps the gathers, scatter-adds and divisions on the host, in the reference's own operations on
  the same operands, and computes the dense stages block by block over 20 row tiles of 5000 nodes: the convolution and
  the gate in a first region, the centring in a second, the normalised output in a third. A row tile keeps all 64 lanes,
  so each contraction is whole inside a block and block t of a region's output is block t of the stage applied to whole
  arrays; the blocks tile the rows. On the extended reals a product on the matrix unit into the zero accumulator is the
  host's dot product, the logistic operation is 1 / (1 + exp (−z)), and a per-channel parameter reshaped to a row is the
  parameter broadcast to a row. Hence both programs compute one composition of the same stages; no algebraic law of the
  extended reals beyond the naming of a contraction index is used, and the inputs' finiteness is never needed.
-/
import proofs.«170338_j68178310856858_1_alg».proof.Defs
import proofs.«170338_j68178310856858_1_alg».proof.Proof.Gen.Kernel
import proofs.«170338_j68178310856858_1_alg».proof.Proof.Gen.Kernel.Frame
import proofs.«170338_j68178310856858_1_alg».proof.Proof.Gen.KernelIdeal
import proofs.«170338_j68178310856858_1_alg».proof.Proof.Gen.KernelIdeal.Frame
import proofs.«170338_j68178310856858_1_alg».proof.Proof.Gen.ReferenceIdeal
import proofs.«170338_j68178310856858_1_alg».proof.Proof.Gen.ReferenceIdeal.Run
import proofs.«170338_j68178310856858_1_alg».proof.Proof.Gen.ReferenceIdeal.Read
import proofs.«170338_j68178310856858_1_alg».proof.Proof.Gen.Pre_finite_inputs
import proofs.«170338_j68178310856858_1_alg».proof.Proof.KernelRun
import proofs.«170338_j68178310856858_1_alg».proof.Proof.KernelChain
import proofs.«170338_j68178310856858_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer of the arguments: the kernel program by
    reading its result back through its regions and host stretches, the reference by unfolding its operations into the
    same stages. -/
theorem algebraic : Cert.algebraic_KernelIdeal_ReferenceIdeal := by
  intro m ρ m' ρ' _ hagree
  refine ⟨fun c => Cert.KernelIdeal.Chain.resK m c, ?_, ?_⟩
  · exact (θ_run Cert.KernelIdeal.defs _ _).mono
      (fun r h c => ⟨(h c).1.trans (Cert.KernelIdeal.Chain.w6_res m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v96_eq, Cert.RefStages.ref_layer, a0, a1, a2, a3, a4, a5, a6, a7, a8, a9, a10, a11, a12]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
